-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x768 : Shape := ⟨2, ![32768, 768]⟩
abbrev S200x768 : Shape := ⟨2, ![200, 768]⟩
abbrev S32768 : Shape := ⟨1, ![32768]⟩
abbrev S_ : Shape := ⟨0, ![]⟩

class Facts : Prop where
  bcast_S_S32768x768 : S_.BroadcastsInDim S32768x768 (![] : Fin 0 → Fin S32768x768.rank)
  reducesTo_S32768x768_S_d0_1 : S32768x768.ReducesTo [0, 1] S_
  h_S_ : 0 < S_.numel
  bcast_S_S200x768 : S_.BroadcastsInDim S200x768 (![] : Fin 0 → Fin S200x768.rank)
  reducesTo_S200x768_S_d0_1 : S200x768.ReducesTo [0, 1] S_

variable [Facts]

def fn {F : FTy → Type} [FloatOps F] (main_arg0 : FVec F S32768x768 .f32) (main_arg1 : FVec F S200x768 .f32) (main_arg2 : IVec S32768 32) (main_arg3 : IVec S32768 1) : IVec S_ 1 :=
  let main_v0 : FVec F S32768x768 .f32 := Host.absf main_arg0
  let main_cst : FVec F S_ .f32 := constant S_ .f32 0x7F800000#32
  let main_v1 : FVec F S32768x768 .f32 := broadcastInDim S32768x768 ![] bcast_S_S32768x768 main_cst
  let main_v2 : IVec S32768x768 1 := cmpf .olt main_v0 main_v1
  let main_c : IVec S_ 1 := constantI S_ 1 1#1
  let main_v3 : IVec S_ 1 := (fun x v => Host.reduce IntOp.andi x v reducesTo_S32768x768_S_d0_1 h_S_) main_v2 main_c
  let main_v4 : FVec F S200x768 .f32 := Host.absf main_arg1
  let main_cst_0 : FVec F S_ .f32 := constant S_ .f32 0x7F800000#32
  let main_v5 : FVec F S200x768 .f32 := broadcastInDim S200x768 ![] bcast_S_S200x768 main_cst_0
  let main_v6 : IVec S200x768 1 := cmpf .olt main_v4 main_v5
  let main_c_1 : IVec S_ 1 := constantI S_ 1 1#1
  let main_v7 : IVec S_ 1 := (fun x v => Host.reduce IntOp.andi x v reducesTo_S200x768_S_d0_1 h_S_) main_v6 main_c_1
  let main_v8 : IVec S_ 1 := andi main_v3 main_v7
  main_v8
-- ==== Kernel.lean ====
abbrev S32768x768 : Shape := ⟨2, ![32768, 768]⟩
abbrev S200x768 : Shape := ⟨2, ![200, 768]⟩
abbrev S32768 : Shape := ⟨1, ![32768]⟩
abbrev S_ : Shape := ⟨0, ![]⟩
abbrev S200 : Shape := ⟨1, ![200]⟩
abbrev S200x1 : Shape := ⟨2, ![200, 1]⟩
abbrev S768x200 : Shape := ⟨2, ![768, 200]⟩
abbrev S32768x1 : Shape := ⟨2, ![32768, 1]⟩
abbrev S32768x2 : Shape := ⟨2, ![32768, 2]⟩
abbrev S1x1 : Shape := ⟨2, ![1, 1]⟩
abbrev S1024x768 : Shape := ⟨2, ![1024, 768]⟩
abbrev S1024x2 : Shape := ⟨2, ![1024, 2]⟩
abbrev S1024 : Shape := ⟨1, ![1024]⟩
abbrev S1024x1 : Shape := ⟨2, ![1024, 1]⟩
abbrev S1024x200 : Shape := ⟨2, ![1024, 200]⟩
abbrev S1 : Shape := ⟨1, ![1]⟩

abbrev nBuf : Space → Nat
  | .hbm => 23
  | .vmem => 6
  | .smem => 0
  | _ => 0

abbrev bufTy : (tb : Table) → Fin (tcTables nBuf tb) → BufTy
  | .hbm, ⟨0, _⟩ => ⟨S32768x768, .f32⟩
  | .hbm, ⟨1, _⟩ => ⟨S200x768, .f32⟩
  | .hbm, ⟨2, _⟩ => ⟨S32768, .i32⟩
  | .hbm, ⟨3, _⟩ => ⟨S32768, .i1⟩
  | .hbm, ⟨4, _⟩ => ⟨S200x768, .f32⟩
  | .hbm, ⟨5, _⟩ => ⟨S_, .f32⟩
  | .hbm, ⟨6, _⟩ => ⟨S200, .f32⟩
  | .hbm, ⟨7, _⟩ => ⟨S200x1, .f32⟩
  | .hbm, ⟨8, _⟩ => ⟨S200x1, .f32⟩
  | .hbm, ⟨9, _⟩ => ⟨S_, .f32⟩
  | .hbm, ⟨10, _⟩ => ⟨S200x1, .f32⟩
  | .hbm, ⟨11, _⟩ => ⟨S200x1, .f32⟩
  | .hbm, ⟨12, _⟩ => ⟨S200x768, .f32⟩
  | .hbm, ⟨13, _⟩ => ⟨S200x768, .f32⟩
  | .hbm, ⟨14, _⟩ => ⟨S200x768, .bf16⟩
  | .hbm, ⟨15, _⟩ => ⟨S768x200, .bf16⟩
  | .hbm, ⟨16, _⟩ => ⟨S32768, .i32⟩
  | .hbm, ⟨17, _⟩ => ⟨S32768x1, .i32⟩
  | .hbm, ⟨18, _⟩ => ⟨S32768x1, .i32⟩
  | .hbm, ⟨19, _⟩ => ⟨S32768x2, .i32⟩
  | .hbm, ⟨20, _⟩ => ⟨S1x1, .f32⟩
  | .hbm, ⟨21, _⟩ => ⟨S_, .f32⟩
  | .hbm, ⟨22, _⟩ => ⟨S_, .f32⟩
  | .local _ .vmem, ⟨0, _⟩ => ⟨S1024x768, .f32⟩
  | .local _ .vmem, ⟨1, _⟩ => ⟨S1024x768, .f32⟩
  | .local _ .vmem, ⟨2, _⟩ => ⟨S768x200, .bf16⟩
  | .local _ .vmem, ⟨3, _⟩ => ⟨S1024x2, .i32⟩
  | .local _ .vmem, ⟨4, _⟩ => ⟨S1024x2, .i32⟩
  | .local _ .vmem, ⟨5, _⟩ => ⟨S1x1, .f32⟩
  | _, _ => ⟨S32768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x200 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  reducesTo_S200x768_S200_d1 : S200x768.ReducesTo [1] S200
  h_S_ : 0 < S_.numel
  bcast_S200_S200x1_0 : S200.BroadcastsInDim S200x1 (![0] : Fin 1 → Fin S200x1.rank)
  bcast_S_S200x1 : S_.BroadcastsInDim S200x1 (![] : Fin 0 → Fin S200x1.rank)
  bcast_S200x1_S200x768_0_1 : S200x1.BroadcastsInDim S200x768 (![0, 1] : Fin 2 → Fin S200x768.rank)
  bitsLt_bf16_f32 : FTy.bits .bf16 < FTy.bits .f32
  transposes_S200x768_S768x200_1_0 : S200x768.Transposes [1, 0] S768x200
  natLt_1_32 : 1 < 32
  bcast_S32768_S32768x1_0 : S32768.BroadcastsInDim S32768x1 (![0] : Fin 1 → Fin S32768x1.rank)
  concatenates_S32768x1_S32768x1_S32768x2_d1 : Shape.Concatenates [S32768x1, S32768x1] S32768x2 1
  inb_S1x1_S1x1_0_0 : ∀ a, (![0, 0] : Fin 2 → Nat) a + S1x1.size a ≤ S1x1.size a
  h_S1x1 : 0 < S1x1.numel
  inb_S1024x768_S1024x768_0_0 : ∀ a, (![0, 0] : Fin 2 → Nat) a + S1024x768.size a ≤ S1024x768.size a
  h_S1024x768 : 0 < S1024x768.numel
  reduces_S1024x768_S1024 : S1024x768.Reduces [1] S1024
  shapeCasts_S1024_S1024x1 : S1024.ShapeCasts S1024x1
  broadcasts_S1024x1_S1024x768 : S1024x1.Broadcasts S1024x768
  inb_S768x200_S768x200_0_0 : ∀ a, (![0, 0] : Fin 2 → Nat) a + S768x200.size a ≤ S768x200.size a
  h_S768x200 : 0 < S768x200.numel
  shapeCasts_S768x200_S768x200 : S768x200.ShapeCasts S768x200
  inb_S1024x2_S1024x2_0_0 : ∀ a, (![0, 0] : Fin 2 → Nat) a + S1024x2.size a ≤ S1024x2.size a
  h_S1024x2 : 0 < S1024x2.numel
  shapeCasts_S1024x2_S1024x2 : S1024x2.ShapeCasts S1024x2
  slices_S1024x2_o0_0_S1024x1 : S1024x2.Slices ![0, 0] S1024x1
  slices_S1024x2_o0_1_S1024x1 : S1024x2.Slices ![0, 1] S1024x1
  iota_S1024x200_d1_w32 : S1024x200.Iotas .tc 32 [1]
  broadcasts_S1024x1_S1024x200 : S1024x1.Broadcasts S1024x200
  reduces_S1024x200_S1024 : S1024x200.Reduces [1] S1024
  reduces_S1024x1_S1 : S1024x1.Reduces [0] S1
  shapeCasts_S1_S1x1 : S1.ShapeCasts S1x1
  shapeCasts_S1x1_S1x1 : S1x1.ShapeCasts S1x1
  shapeCasts_S1x1_S_ : S1x1.ShapeCasts S_
  dot_S1024x768_S768x200_S1024x200_1_0_0_1_n_n_wf : DotDims.WF S1024x768 S768x200 S1024x200 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S32768x768.size a
  hwx0_0 : ∀ i : grid0.Coords, EltTy.bits .f32 = 32 ∨ (Rect.block (s := S32768x768) S1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x200.size a ≤ S768x200.size a
  hwx0_1 : ∀ i : grid0.Coords, EltTy.bits .bf16 = 32 ∨ (Rect.block (s := S768x200) S768x200.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2.size a ≤ S32768x2.size a
  hwx0_2 : ∀ i : grid0.Coords, EltTy.bits .i32 = 32 ∨ (Rect.block (s := S32768x2) S1024x2.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def dot_S1024x768_S768x200_S1024x200_1_0_0_1_n_n : DotDims S1024x768 S768x200 S1024x200 where
  lhsContracting := [1]
  rhsContracting := [0]
  lhsNonContracting := [0]
  rhsNonContracting := [1]
  lhsBatch := []
  rhsBatch := []
  wf := dot_S1024x768_S768x200_S1024x200_1_0_0_1_n_n_wf

abbrev win0_0 : Pipeline.Window sig grid0 :=
  Pipeline.Window.ofSpec (Memref.whole main_arg0) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S768x200.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1024x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x768 : Shape := ⟨2, ![32768, 768]⟩
abbrev S200x768 : Shape := ⟨2, ![200, 768]⟩
abbrev S32768 : Shape := ⟨1, ![32768]⟩
abbrev S_ : Shape := ⟨0, ![]⟩
abbrev S32768x1 : Shape := ⟨2, ![32768, 1]⟩
abbrev S200 : Shape := ⟨1, ![200]⟩
abbrev S200x1 : Shape := ⟨2, ![200, 1]⟩
abbrev S32768x200 : Shape := ⟨2, ![32768, 200]⟩
abbrev S1x200 : Shape := ⟨2, ![1, 200]⟩

abbrev nBuf : Space → Nat
  | .hbm => 50
  | .vmem => 0
  | .smem => 0
  | _ => 0

abbrev bufTy : (tb : Table) → Fin (tcTables nBuf tb) → BufTy
  | .hbm, ⟨0, _⟩ => ⟨S32768x768, .f32⟩
  | .hbm, ⟨1, _⟩ => ⟨S200x768, .f32⟩
  | .hbm, ⟨2, _⟩ => ⟨S32768, .i32⟩
  | .hbm, ⟨3, _⟩ => ⟨S32768, .i1⟩
  | .hbm, ⟨4, _⟩ => ⟨S32768x768, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S32768x768, .f32⟩
  | .hbm, ⟨13, _⟩ => ⟨S32768x768, .f32⟩
  | .hbm, ⟨14, _⟩ => ⟨S200x768, .f32⟩
  | .hbm, ⟨15, _⟩ => ⟨S_, .f32⟩
  | .hbm, ⟨16, _⟩ => ⟨S200, .f32⟩
  | .hbm, ⟨17, _⟩ => ⟨S200x1, .f32⟩
  | .hbm, ⟨18, _⟩ => ⟨S200x1, .f32⟩
  | .hbm, ⟨19, _⟩ => ⟨S_, .f32⟩
  | .hbm, ⟨20, _⟩ => ⟨S200x1, .f32⟩
  | .hbm, ⟨21, _⟩ => ⟨S200x1, .f32⟩
  | .hbm, ⟨22, _⟩ => ⟨S200x768, .f32⟩
  | .hbm, ⟨23, _⟩ => ⟨S200x768, .f32⟩
  | .hbm, ⟨24, _⟩ => ⟨S32768x200, .f32⟩
  | .hbm, ⟨25, _⟩ => ⟨S32768x200, .f32⟩
  | .hbm, ⟨26, _⟩ => ⟨S32768x1, .i32⟩
  | .hbm, ⟨27, _⟩ => ⟨S1x200, .i32⟩
  | .hbm, ⟨28, _⟩ => ⟨S32768x200, .i32⟩
  | .hbm, ⟨29, _⟩ => ⟨S32768x200, .i32⟩
  | .hbm, ⟨30, _⟩ => ⟨S32768x200, .i1⟩
  | .hbm, ⟨31, _⟩ => ⟨S32768x200, .f32⟩
  | .hbm, ⟨32, _⟩ => ⟨S32768x200, .f32⟩
  | .hbm, ⟨33, _⟩ => ⟨S_, .f32⟩
  | .hbm, ⟨34, _⟩ => ⟨S32768, .f32⟩
  | .hbm, ⟨35, _⟩ => ⟨S32768x1, .f32⟩
  | .hbm, ⟨36, _⟩ => ⟨S_, .f32⟩
  | .hbm, ⟨37, _⟩ => ⟨S32768x1, .f32⟩
  | .hbm, ⟨38, _⟩ => ⟨S32768x1, .f32⟩
  | .hbm, ⟨39, _⟩ => ⟨S32768x200, .f32⟩
  | .hbm, ⟨40, _⟩ => ⟨S32768x200, .f32⟩
  | .hbm, ⟨41, _⟩ => ⟨S32768x1, .i1⟩
  | .hbm, ⟨42, _⟩ => ⟨S_, .f32⟩
  | .hbm, ⟨43, _⟩ => ⟨S_, .f32⟩
  | .hbm, ⟨44, _⟩ => ⟨S32768x200, .i1⟩
  | .hbm, ⟨45, _⟩ => ⟨S32768x200, .f32⟩
  | .hbm, ⟨46, _⟩ => ⟨S32768x200, .f32⟩
  | .hbm, ⟨47, _⟩ => ⟨S_, .f32⟩
  | .hbm, ⟨48, _⟩ => ⟨S_, .f32⟩
  | .hbm, ⟨49, _⟩ => ⟨S_, .f32⟩
  | _, _ => ⟨S32768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_call2_v0 : Ref sig .tc := ⟨.hbm, 26, rfl⟩
abbrev main_call2_v1 : Ref sig .tc := ⟨.hbm, 27, rfl⟩
abbrev main_call2_v2 : Ref sig .tc := ⟨.hbm, 28, rfl⟩
abbrev main_call2_v3 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_1 : Ref sig .tc := ⟨.hbm, 33, rfl⟩
abbrev main_v15 : Ref sig .tc := ⟨.hbm, 34, rfl⟩
abbrev main_v16 : Ref sig .tc := ⟨.hbm, 35, rfl⟩
abbrev main_cst_2 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_3 : Ref sig .tc := ⟨.hbm, 42, rfl⟩
abbrev main_call4_v0 : Ref sig .tc := ⟨.hbm, 43, rfl⟩
abbrev main_call4_v1 : Ref sig .tc := ⟨.hbm, 44, rfl⟩
abbrev main_call4_v2 : Ref sig .tc := ⟨.hbm, 45, rfl⟩
abbrev main_v22 : Ref sig .tc := ⟨.hbm, 46, rfl⟩
abbrev main_cst_4 : Ref sig .tc := ⟨.hbm, 47, rfl⟩
abbrev main_v23 : Ref sig .tc := ⟨.hbm, 48, rfl⟩
abbrev main_v24 : Ref sig .tc := ⟨.hbm, 49, rfl⟩

abbrev nD : Nat := 1
abbrev τ : Topo := Topo.v7x

variable {F : FTy → Type} [FloatOps F]

class Facts₀ : Prop where
  reducesTo_S32768x768_S32768_d1 : S32768x768.ReducesTo [1] S32768
  h_S_ : 0 < S_.numel
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S32768x1_S32768x768_0_1 : S32768x1.BroadcastsInDim S32768x768 (![0, 1] : Fin 2 → Fin S32768x768.rank)
  reducesTo_S200x768_S200_d1 : S200x768.ReducesTo [1] S200
  bcast_S200_S200x1_0 : S200.BroadcastsInDim S200x1 (![0] : Fin 1 → Fin S200x1.rank)
  bcast_S_S200x1 : S_.BroadcastsInDim S200x1 (![] : Fin 0 → Fin S200x1.rank)
  bcast_S200x1_S200x768_0_1 : S200x1.BroadcastsInDim S200x768 (![0, 1] : Fin 2 → Fin S200x768.rank)
  bcast_S32768x1_S32768x200_0_1 : S32768x1.BroadcastsInDim S32768x200 (![0, 1] : Fin 2 → Fin S32768x200.rank)
  bcast_S1x200_S32768x200_0_1 : S1x200.BroadcastsInDim S32768x200 (![0, 1] : Fin 2 → Fin S32768x200.rank)
  reducesTo_S32768x200_S32768_d1 : S32768x200.ReducesTo [1] S32768
  bcast_S_S32768x200 : S_.BroadcastsInDim S32768x200 (![] : Fin 0 → Fin S32768x200.rank)
  reducesTo_S32768x200_S_d0_1 : S32768x200.ReducesTo [0, 1] S_
  dot_S32768x768_S200x768_S32768x200_1_1_0_0_n_n_wf : DotDims.WF S32768x768 S200x768 S32768x200 [1] [1] [0] [0] [] []

variable [Facts₀]

def dot_S32768x768_S200x768_S32768x200_1_1_0_0_n_n : DotDims S32768x768 S200x768 S32768x200 where
  lhsContracting := [1]
  rhsContracting := [1]
  lhsNonContracting := [0]
  rhsNonContracting := [0]
  lhsBatch := []
  rhsBatch := []
  wf := dot_S32768x768_S200x768_S32768x200_1_1_0_0_n_n_wf

class Facts : Prop extends Facts₀ where

variable [Facts]
-- ==== Proof.Spec.lean ====
/-
  The loss both programs compute, written once over the extended reals.

  Every row of `features` (32768 × 768) and of `centers` (200 × 768) is divided by its Euclidean norm, the norm
  bounded below by ε₁ = f32 1e-8.  The cosine of feature row b with centre c is the inner product of the two scaled
  rows; a(b, c) is its absolute value.  Row b contributes
        (2 · a(b, label b) − Σ_c a(b, c)) / max(Σ_c a(b, c), ε₂) · mask b,          ε₂ = f32 1e-12,
  where a(b, label b) is written as the sum over c of a(b, c) where c is the label and 0 elsewhere (so a label outside
  0 … 199 selects nothing), and mask b is the row's one-bit flag read as the number 0 or 1.  The loss is minus the sum
  of the rows' contributions.

  The reference does not form the row value: it forms the 32768 × 200 table whose cell (b, c) is ±a(b, c) (plus at the
  label, minus elsewhere) divided by the same bounded row sum, kept where the flag is set and 0 where it is not, and
  sums the whole table.  `cell` is that table's entry; that a row of cells adds up to the row value is proved in
  RowLaw.lean for rows of real numbers.
-/
import Idealize.ShloMosaic.PureOps.Ideal
import Idealize.ShloMosaic.Lib.ValueIdx

noncomputable section

namespace Cert.CosLoss

open Idealize.ShloMosaic Idealize.ShloMosaic.ValueIdx

/-- An n × k array of extended reals, indexed as the printed programs index theirs. -/
abbrev Mat (n k : ℕ) : Type := (⟨2, ![n, k]⟩ : Shape).Idx → EReal

/-- ε₁: the lower bound on a row's norm (the f32 nearest 1e-8). -/
abbrev epsNorm : EReal := Ideal.ofBits .f32 0x322BCC77#32
/-- ε₂: the lower bound on a row's sum of absolute cosines (the f32 nearest 1e-12). -/
abbrev epsSum : EReal := Ideal.ofBits .f32 0x2B8CBCCC#32
/-- The factor 2 of the row value. -/
abbrev two : EReal := Ideal.ofBits .f32 0x40000000#32

/-- Entry k of row r of X, the row divided by max(‖row‖₂, ε₁). -/
def unitRow {n : ℕ} (X : Mat n 768) (r : Fin n) (k : Fin 768) : EReal :=
  Ideal.div (X (ix2 r k)) (max (Ideal.sqrt (∑ d : Fin 768, X (ix2 r d) * X (ix2 r d))) epsNorm)

/-- The cosine of feature row b and centre c: the inner product of the two scaled rows. -/
def cosine (X : Mat 32768 768) (C : Mat 200 768) (b : Fin 32768) (c : Fin 200) : EReal :=
  ∑ k : Fin 768, unitRow X b k * unitRow C c k

/-- a(b, c) = |cosine|. -/
def absCos (X : Mat 32768 768) (C : Mat 200 768) (b : Fin 32768) (c : Fin 200) : EReal :=
  max (cosine X C b c) (-(cosine X C b c))

/-- One row's contribution, from the row a of absolute cosines, the row's label word and its one-bit flag. -/
def rowValue (a : Fin 200 → EReal) (lbl : BitVec 32) (msk : BitVec 1) : EReal :=
  Ideal.div (two * (∑ c : Fin 200, Scalar.select (IntOp.cmpi .eq (BitVec.ofNat 32 c.val) lbl) (a c) 0) - ∑ c : Fin 200, a c)
      (max (∑ c : Fin 200, a c) epsSum)
    * (((msk.setWidth 32).toInt : ℝ) : EReal)

/-- The reference's table entry in column c of such a row. -/
def cell (a : Fin 200 → EReal) (lbl : BitVec 32) (msk : BitVec 1) (c : Fin 200) : EReal :=
  Scalar.select msk
    (Ideal.div (Scalar.select (IntOp.cmpi .eq lbl (BitVec.ofNat 32 c.val)) (a c) (-(a c))) (max (∑ c' : Fin 200, a c') epsSum))
    0

/-- Row b's contribution to the loss. -/
def rowTerm (X : Mat 32768 768) (C : Mat 200 768) (L : Fin 32768 → BitVec 32) (M : Fin 32768 → BitVec 1)
    (b : Fin 32768) : EReal :=
  rowValue (absCos X C b) (L b) (M b)

/-- The loss: minus the sum of the rows' contributions. -/
def loss (X : Mat 32768 768) (C : Mat 200 768) (L : Fin 32768 → BitVec 32) (M : Fin 32768 → BitVec 1) : EReal :=
  -(∑ b : Fin 32768, rowTerm X C L M b)

/-- Row r of the t-th block of 1024 rows. -/
def blockRow (t : Fin 32) (r : Fin 1024) : Fin 32768 := ⟨t.val * 1024 + r.val, by have := t.isLt; have := r.isLt; omega⟩

end Cert.CosLoss

end
-- ==== Proof.RowLaw.lean ====
/-
  The row law, over the extended reals.

  For rows of real numbers every quantity of the specification is a real number: a row divided by its bounded norm,
  the cosine, its absolute value.  On such a row the table cells of one row add up to the row's value:
  with the flag set, cell c is ±a(c)/D (plus exactly at the label), D = max(Σ a, ε₂) > 0, and
        Σ_c ±a(c) = Σ_c [c is the label] a(c) − Σ_c [c is not the label] a(c) = 2·A − Σ_c a(c),
  A the sum of a(c) over the label column; with the flag clear both sides are 0.
  Last, summing over 32 blocks of 1024 rows is summing over all 32768 rows.
-/
import proofs.«164460_j43619687858278_1_alg».proof.Proof.Spec
import Idealize.ShloMosaic.PureOps.Ideal.Laws

noncomputable section

namespace Cert.CosLoss

open Idealize.ShloMosaic Idealize.ShloMosaic.ValueIdx

/-! ### Words -/

/-- Equality of two words does not depend on the order they are compared in. -/
theorem cmpi_eq_comm (x y : BitVec 32) : IntOp.cmpi .eq x y = IntOp.cmpi .eq y x := by
  simp only [IntOp.cmpi, Bool.beq_comm (a := x)]

/-- Choosing by a comparison for equality is choosing by the equality. -/
theorem select_cmpi_eq {α : Type} (x y : BitVec 32) (u v : α) :
    Scalar.select (IntOp.cmpi .eq x y) u v = if x = y then u else v := by
  unfold Scalar.select IntOp.cmpi
  by_cases h : x = y
  · subst h
    simp
  · have hb : (x == y) = false := beq_false_of_ne h
    rw [if_neg h, hb]
    show (if BitVec.ofBool false = 1 then u else v) = v
    exact if_neg (by decide)

/-- A one-bit word is 0 or 1. -/
theorem bit_cases : ∀ b : BitVec 1, b = 0#1 ∨ b = 1#1 := by decide

/-! ### The three float literals -/

/-- ε₁ = 11258999 · 2⁻⁵⁰. -/
theorem epsNorm_eq : epsNorm = ((11258999 * (2 : ℝ) ^ (-50 : ℤ) : ℝ) : EReal) := by
  simp [epsNorm, Ideal.ofBits, Ideal.ieee, -EReal.coe_mul]

/-- ε₂ = 9223372 · 2⁻⁶³. -/
theorem epsSum_eq : epsSum = ((9223372 * (2 : ℝ) ^ (-63 : ℤ) : ℝ) : EReal) := by
  simp [epsSum, Ideal.ofBits, Ideal.ieee, -EReal.coe_mul]

/-- The literal 2.0 is the real number 2. -/
theorem two_eq : two = ((2 : ℝ) : EReal) := by
  simp [two, Ideal.ofBits, Ideal.ieee, -EReal.coe_mul]; norm_num

/-- ε₁ is a positive real. -/
theorem epsNorm_pos : ∃ e : ℝ, 0 < e ∧ epsNorm = (e : EReal) :=
  ⟨_, by positivity, epsNorm_eq⟩

/-- ε₂ is a positive real. -/
theorem epsSum_pos : ∃ e : ℝ, 0 < e ∧ epsSum = (e : EReal) :=
  ⟨_, by positivity, epsSum_eq⟩

/-! ### Real numbers inside the extended reals -/

/-- The inclusion of the reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inclusion of the reals commutes with max. -/
theorem coe_max (x y : ℝ) : ((max x y : ℝ) : EReal) = max (x : EReal) (y : EReal) :=
  EReal.coe_strictMono.monotone.map_max

/-- Dividing a real by a nonzero real. -/
theorem div_coe (x y : ℝ) (hy : y ≠ 0) : Ideal.div (x : EReal) (y : EReal) = ((x / y : ℝ) : EReal) := by
  have h : (y : EReal) ≠ 0 := by exact_mod_cast hy
  rw [Ideal.div, if_neg h, ← EReal.coe_inv, ← EReal.coe_mul, div_eq_mul_inv]

/-- The square root of a nonnegative real. -/
theorem sqrt_coe (x : ℝ) (hx : 0 ≤ x) : Ideal.sqrt (x : EReal) = ((Real.sqrt x : ℝ) : EReal) := by
  show (if x < 0 then ⊥ else (Real.sqrt x : EReal)) = _
  rw [if_neg (not_lt.mpr hx)]

/-! ### Scaled rows, cosines and their absolute values are real -/

/-- A real row divided by its bounded norm is a real row: the bound ε₁ keeps the divisor positive. -/
theorem unitRow_real {n : ℕ} (X : Mat n 768) (hX : ∀ i, ∃ r : ℝ, X i = (r : EReal)) (r : Fin n) (k : Fin 768) :
    ∃ x : ℝ, unitRow X r k = (x : EReal) := by
  choose f hf using hX
  obtain ⟨e, he, hE⟩ := epsNorm_pos
  have hsum : (∑ d : Fin 768, X (ix2 r d) * X (ix2 r d))
      = ((∑ d : Fin 768, f (ix2 r d) * f (ix2 r d) : ℝ) : EReal) := by
    rw [coe_sum]
    refine Finset.sum_congr rfl fun d _ => ?_
    rw [hf, EReal.coe_mul]
  have hnn : 0 ≤ ∑ d : Fin 768, f (ix2 r d) * f (ix2 r d) :=
    Finset.sum_nonneg fun d _ => mul_self_nonneg _
  unfold unitRow
  rw [hsum, sqrt_coe _ hnn, hE, ← coe_max, hf, div_coe _ _ (ne_of_gt (lt_max_of_lt_right he))]
  exact ⟨_, rfl⟩

/-- The cosine of two real rows is real. -/
theorem cosine_real (X : Mat 32768 768) (C : Mat 200 768) (hX : ∀ i, ∃ r : ℝ, X i = (r : EReal))
    (hC : ∀ i, ∃ r : ℝ, C i = (r : EReal)) (b : Fin 32768) (c : Fin 200) :
    ∃ r : ℝ, cosine X C b c = (r : EReal) := by
  choose u hu using fun k => unitRow_real X hX b k
  choose v hv using fun k => unitRow_real C hC c k
  refine ⟨∑ k, u k * v k, ?_⟩
  unfold cosine
  rw [coe_sum]
  refine Finset.sum_congr rfl fun k _ => ?_
  rw [hu, hv, EReal.coe_mul]

/-- The absolute cosine of two real rows is real. -/
theorem absCos_real (X : Mat 32768 768) (C : Mat 200 768) (hX : ∀ i, ∃ r : ℝ, X i = (r : EReal))
    (hC : ∀ i, ∃ r : ℝ, C i = (r : EReal)) (b : Fin 32768) (c : Fin 200) :
    ∃ r : ℝ, absCos X C b c = (r : EReal) := by
  obtain ⟨x, hx⟩ := cosine_real X C hX hC b c
  refine ⟨max x (-x), ?_⟩
  unfold absCos
  rw [hx, ← EReal.coe_neg, ← coe_max]

/-! ### The row law -/

/-- In the reals: plus on a set of columns and minus off it, is twice the set's sum minus the whole sum. -/
theorem real_row (r : Fin 200 → ℝ) (p : Fin 200 → Prop) [DecidablePred p] (D : ℝ) :
    ∑ c, (if p c then r c else -r c) / D = (2 * (∑ c, if p c then r c else 0) - ∑ c, r c) / D := by
  rw [← Finset.sum_div, Finset.mul_sum, ← Finset.sum_sub_distrib]
  congr 1
  refine Finset.sum_congr rfl fun c _ => ?_
  split_ifs <;> ring

/-- The cells of one row of real absolute cosines add up to the row's value. -/
theorem row_law (a : Fin 200 → EReal) (ha : ∀ c, ∃ r : ℝ, a c = (r : EReal)) (lbl : BitVec 32) (msk : BitVec 1) :
    ∑ c : Fin 200, cell a lbl msk c = rowValue a lbl msk := by
  choose r hr using ha
  obtain rfl : a = fun c => (r c : EReal) := funext hr
  obtain ⟨e, he, hE⟩ := epsSum_pos
  have hD : max (∑ c, r c) e ≠ 0 := ne_of_gt (lt_max_of_lt_right he)
  have hmax : max (∑ c : Fin 200, (r c : EReal)) epsSum = ((max (∑ c, r c) e : ℝ) : EReal) := by
    rw [hE, ← coe_sum, ← coe_max]
  rcases bit_cases msk with rfl | rfl
  · -- the flag is clear: every cell is 0, and the row value is a product with 0
    have h0 : ∀ c, cell (fun c => (r c : EReal)) lbl 0#1 c = 0 := fun c => by
      unfold cell Scalar.select
      rw [if_neg (by decide)]
    rw [Finset.sum_congr rfl fun c _ => h0 c, Finset.sum_const_zero]
    unfold rowValue
    rw [show ((0#1 : BitVec 1).setWidth 32).toInt = 0 by decide, Int.cast_zero, EReal.coe_zero, mul_zero]
  · -- the flag is set
    have hcell : ∀ c, cell (fun c => (r c : EReal)) lbl 1#1 c
        = (((if lbl = BitVec.ofNat 32 c.val then r c else -r c) / max (∑ c, r c) e : ℝ) : EReal) := fun c => by
      unfold cell
      rw [show ∀ x y : EReal, Scalar.select 1#1 x y = x from fun x y => if_pos (by decide), select_cmpi_eq, hmax]
      rw [← EReal.coe_neg, ← apply_ite (fun x : ℝ => (x : EReal)), div_coe _ _ hD]
    have hlabel : (∑ c : Fin 200, Scalar.select (IntOp.cmpi .eq (BitVec.ofNat 32 c.val) lbl) ((r c : ℝ) : EReal) 0)
        = ((∑ c : Fin 200, if lbl = BitVec.ofNat 32 c.val then r c else 0 : ℝ) : EReal) := by
      rw [coe_sum]
      refine Finset.sum_congr rfl fun c _ => ?_
      rw [cmpi_eq_comm, select_cmpi_eq, ← EReal.coe_zero, ← apply_ite (fun x : ℝ => (x : EReal))]
    rw [Finset.sum_congr rfl fun c _ => hcell c, ← coe_sum, real_row]
    unfold rowValue
    rw [hlabel, hmax, two_eq, ← coe_sum, ← EReal.coe_mul, ← EReal.coe_sub, div_coe _ _ hD,
      show ((1#1 : BitVec 1).setWidth 32).toInt = 1 by decide, Int.cast_one, EReal.coe_one, mul_one]

/-! ### Blocks of rows -/

/-- (block, row in the block) ↦ row is a bijection of 32 × 1024 with 32768: quotient and remainder by 1024. -/
def blockEquiv : Fin 32 × Fin 1024 ≃ Fin 32768 where
  toFun p := blockRow p.1 p.2
  invFun b := (⟨b.val / 1024, by have := b.isLt; omega⟩, ⟨b.val % 1024, by omega⟩)
  left_inv := by
    rintro ⟨t, r⟩
    have ht := t.isLt
    have hr := r.isLt
    refine Prod.ext (Fin.ext ?_) (Fin.ext ?_)
    · show (t.val * 1024 + r.val) / 1024 = t.val
      omega
    · show (t.val * 1024 + r.val) % 1024 = r.val
      omega
  right_inv := by
    intro b
    refine Fin.ext ?_
    show (b.val / 1024) * 1024 + b.val % 1024 = b.val
    omega

/-- Summing over the 32 blocks of 1024 rows is summing over all 32768 rows. -/
theorem sum_blockRow (f : Fin 32768 → EReal) :
    ∑ t : Fin 32, ∑ r : Fin 1024, f (blockRow t r) = ∑ b : Fin 32768, f b := by
  rw [← Fintype.sum_prod_type' (f := fun t r => f (blockRow t r))]
  exact Fintype.sum_equiv blockEquiv _ _ fun _ => rfl

end Cert.CosLoss

end
-- ==== Proof.Finite.lean ====
/-
  What the precondition says of the two float arguments.

  The precondition is the conjunction of two statements of the form "every entry x of the array has |x| < +∞", each
  printed as an element-wise comparison against the pattern 0x7F800000 folded by `and` over the whole array.  Over the
  extended reals that pattern is ⊤ and |x| is max x (−x), which is ⊤ at both ⊤ and ⊥; so an entry that passes the
  comparison is neither infinity, that is, it is a real number.
-/
import proofs.«164460_j43619687858278_1_alg».proof.Proof.Gen.Pre_finite_inputs
import Idealize.ShloMosaic.Lib.ReduceAll
import Idealize.ShloMosaic.Lib.ValueIdx
import Idealize.ShloMosaic.PureOps.Ideal

namespace Cert.CosLoss

open Idealize.ShloMosaic

/-- The f32 pattern 0x7F800000 (all-ones exponent, zero fraction, sign clear) denotes +∞. -/
theorem ofBits_f32_inf : Ideal.ofBits .f32 0x7F800000#32 = (⊤ : EReal) := by
  simp [Ideal.ofBits, Ideal.ieee]

/-- An extended real whose absolute value max x (−x) is strictly below +∞ is a real number:
    at x = ⊤ the maximum is ⊤, at x = ⊥ it is −⊥ = ⊤, and ⊤ < ⊤ fails. -/
theorem real_of_abs_lt_inf (x : EReal)
    (h : Ideal.cmp .olt (max x (-x)) (Ideal.ofBits .f32 0x7F800000#32) = 1#1) : ∃ r : ℝ, x = (r : EReal) := by
  rw [ofBits_f32_inf] at h
  induction x using EReal.rec with
  | bot => simp [Ideal.cmp] at h
  | coe r => exact ⟨r, rfl⟩
  | top => simp [Ideal.cmp] at h

/-- Under the precondition every entry of both float arguments is a real number. -/
theorem finite_of_pre (a0 : FVec Ideal Cert.Pre_finite_inputs.S32768x768 .f32) (a1 : FVec Ideal Cert.Pre_finite_inputs.S200x768 .f32) (a2 : IVec Cert.Pre_finite_inputs.S32768 32) (a3 : IVec Cert.Pre_finite_inputs.S32768 1) (h : Cert.Pre_finite_inputs.fn (F := Ideal) a0 a1 a2 a3 = fun _ => 1#1) : (∀ i, ∃ r : ℝ, a0 i = (r : EReal)) ∧ (∀ i, ∃ r : ℝ, a1 i = (r : EReal)) := by
  -- the result has no axes, hence exactly one index
  haveI : Subsingleton Cert.Pre_finite_inputs.S_.Idx := ⟨fun a b => funext fun d => d.elim0⟩
  have h0 := congrFun h ValueIdx.ix0
  dsimp only [Cert.Pre_finite_inputs.fn] at h0
  -- the final `and` of the two folds is 1, so each fold is 1
  obtain ⟨e0, e1⟩ := IntOp.andi_eq_one.1 h0
  refine ⟨fun i => ?_, fun i => ?_⟩
  · -- a fold by `and` over every axis that is 1 met a 1 at every index: the comparison holds at i
    have hi := Host.reduce_andi_all _ _ _ _ _ e0 i
    exact real_of_abs_lt_inf (a0 i) hi
  · have hi := Host.reduce_andi_all _ _ _ _ _ e1 i
    exact real_of_abs_lt_inf (a1 i) hi

end Cert.CosLoss
-- ==== Proof.RefTable.lean ====
/-
  The reference program computes minus the sum of the 32768 × 200 table of cells.

  The reference is read one operation at a time through the generated stage lemmas.  Three facts are read off in turn,
  each at explicit coordinates:

    • its two scaled arrays are the rows of `features` and of `centers` divided by max(‖row‖₂, ε₁) (`unitRow`): the
      squared norm is the sum along the row started from the constant 0, then the square root, the lower bound ε₁, and
      the quotient, the bound being carried along the row by two broadcasts that only repeat it;
    • the contraction of the two scaled arrays along their common axis, followed by the absolute value, is a(b, c)
      (`absCos`);
    • the entry (b, c) of the table it finally sums is `cell` of row b of a, of the row's label word and of its flag: the
      label is compared with the column number c, the sign of a(b, c) chosen by the comparison, the quotient taken by
      the row sum of a bounded below by ε₂, and the entry kept or replaced by 0 according to the flag.

  The program's result is the negation of the sum of the table over both axes started from the constant 0, and a sum
  over the pairs (b, c) is the iterated sum over b and over c.
-/
import proofs.«164460_j43619687858278_1_alg».proof.Proof.Gen.ReferenceIdeal.Read
import proofs.«164460_j43619687858278_1_alg».proof.Proof.Spec

noncomputable section

namespace Cert.CosLoss

open Cert.ReferenceIdeal Cert.ReferenceIdeal.Gen Cert.ReferenceIdeal.Read Idealize.ShloMosaic Idealize.ShloMosaic.ValueIdx

/-! ## The scaled rows -/

/-- Entry (b, k) of the broadcast norm of `features` is read from the row sum at b, whose d-th term sits at (b, d). -/
theorem ref_idx_row0 (b : Fin 32768) (k d : Fin 768) :
    idx_main_call0_v1 (idx_main_call0_v2 (idx_main_v3 (ix2 b k))) d = ix2 b d :=
  funext fun a => Fin.ext (by match a with | ⟨0, _⟩ => rfl | ⟨1, _⟩ => rfl)

/-- The same for `centers`: entry (c, k) of its broadcast norm is read from the row sum at c, with terms at (c, d). -/
theorem ref_idx_row1 (c : Fin 200) (k d : Fin 768) :
    idx_main_call1_v1 (idx_main_call1_v2 (idx_main_v8 (ix2 c k))) d = ix2 c d :=
  funext fun a => Fin.ext (by match a with | ⟨0, _⟩ => rfl | ⟨1, _⟩ => rfl)

/-- The reference's scaled `features`: entry (b, k) is x(b, k) / max(√(0 + Σ_d x(b, d)²), ε₁). -/
theorem ref_unitRow0 (x0 : (⟨S32768x768, .f32⟩ : BufTy).Contents (Elt Ideal)) (b : Fin 32768) (k : Fin 768) :
    val_main_v4 (F := Ideal) x0 (ix2 b k) = unitRow x0 b k := by
  rw [val_main_v4_apply, val_main_v3_apply, val_main_v2_apply, val_main_v0_apply, val_main_call0_v2_apply,
    val_main_call0_v1_apply, val_main_v1_apply, val_main_cst_apply, val_main_call0_cst_apply]
  simp only [ref_idx_row0, val_main_call0_v0_apply, Ideal.hostDivf_def, Ideal.hostUnary_sqrt_def, Ideal.maximumf_def,
    Ideal.mulf_def, Ideal.ofBits_def, Ideal.ofBits_zero_f32, zero_add]
  rfl

/-- The reference's scaled `centers`: entry (c, k) is y(c, k) / max(√(0 + Σ_d y(c, d)²), ε₁). -/
theorem ref_unitRow1 (x1 : (⟨S200x768, .f32⟩ : BufTy).Contents (Elt Ideal)) (c : Fin 200) (k : Fin 768) :
    val_main_v9 (F := Ideal) x1 (ix2 c k) = unitRow x1 c k := by
  rw [val_main_v9_apply, val_main_v8_apply, val_main_v7_apply, val_main_v5_apply, val_main_call1_v2_apply,
    val_main_call1_v1_apply, val_main_v6_apply, val_main_cst_0_apply, val_main_call1_cst_apply]
  simp only [ref_idx_row1, val_main_call1_v0_apply, Ideal.hostDivf_def, Ideal.hostUnary_sqrt_def, Ideal.maximumf_def,
    Ideal.mulf_def, Ideal.ofBits_def, Ideal.ofBits_zero_f32, zero_add]
  rfl

/-! ## The absolute cosines -/

/-- The k-th term of the contraction at (b, c) takes the left factor at (b, k) … -/
theorem ref_idx_dotL (b : Fin 32768) (c : Fin 200) (k : Fin 768) : lidx_main_v10 (ix2 b c) k = ix2 b k :=
  funext fun a => Fin.ext (by match a with | ⟨0, _⟩ => rfl | ⟨1, _⟩ => rfl)

/-- … and the right factor at (c, k). -/
theorem ref_idx_dotR (b : Fin 32768) (c : Fin 200) (k : Fin 768) : ridx_main_v10 (ix2 b c) k = ix2 c k :=
  funext fun a => Fin.ext (by match a with | ⟨0, _⟩ => rfl | ⟨1, _⟩ => rfl)

/-- Entry (b, c) of the reference's array of absolute values is a(b, c) = |Σ_k u(b, k) · v(c, k)|, u and v the scaled rows. -/
theorem ref_absCos (x0 : (⟨S32768x768, .f32⟩ : BufTy).Contents (Elt Ideal)) (x1 : (⟨S200x768, .f32⟩ : BufTy).Contents (Elt Ideal))
    (b : Fin 32768) (c : Fin 200) :
    val_main_v11 (F := Ideal) x0 x1 (ix2 b c) = absCos x0 x1 b c := by
  rw [val_main_v11_apply, val_main_v10_apply]
  simp only [ref_idx_dotL, ref_idx_dotR, ref_unitRow0, ref_unitRow1, Ideal.hostAbsf_def, Ideal.absf_def]
  rfl

/-! ## The table -/

/-- The label compared at (b, c) is the label of row b. -/
theorem ref_idx_lbl (b : Fin 32768) (c : Fin 200) : idx_main_call2_v0 (idx_main_call2_v2 (ix2 b c)) = ix1 b :=
  funext fun a => Fin.ext (by match a with | ⟨0, _⟩ => rfl)

/-- The flag applied at (b, c) is the flag of row b. -/
theorem ref_idx_msk (b : Fin 32768) (c : Fin 200) : idx_main_v21 (idx_main_call4_v1 (ix2 b c)) = ix1 b :=
  funext fun a => Fin.ext (by match a with | ⟨0, _⟩ => rfl)

/-- The divisor at (b, c) is read from the row sum at b, whose k-th term sits at (b, k). -/
theorem ref_idx_rowsum (b : Fin 32768) (c k : Fin 200) : idx_main_v15 (idx_main_v16 (idx_main_v19 (ix2 b c))) k = ix2 b k :=
  funext fun a => Fin.ext (by match a with | ⟨0, _⟩ => rfl | ⟨1, _⟩ => rfl)

/-- Entry (b, c) of the table the reference sums: ±a(b, c) (plus where the row's label is c) over
    max(0 + Σ_k a(b, k), ε₂), kept where the row's flag is set and 0 where it is not. -/
theorem ref_cell (x0 : (⟨S32768x768, .f32⟩ : BufTy).Contents (Elt Ideal)) (x1 : (⟨S200x768, .f32⟩ : BufTy).Contents (Elt Ideal))
    (x2 : (⟨S32768, .i32⟩ : BufTy).Contents (Elt Ideal)) (x3 : (⟨S32768, .i1⟩ : BufTy).Contents (Elt Ideal))
    (b : Fin 32768) (c : Fin 200) :
    val_main_v22 (F := Ideal) x0 x1 x2 x3 (ix2 b c) = cell (absCos x0 x1 b) (x2 (ix1 b)) (x3 (ix1 b)) c := by
  rw [val_main_v22_apply, val_main_call4_v1_apply, val_main_v21_apply, val_main_call4_v2_apply, val_main_call4_v0_apply,
    val_main_cst_3_apply, val_main_v20_apply, val_main_v14_apply, val_main_v12_apply, val_main_call2_v2_apply,
    val_main_call2_v0_apply, val_main_call2_v3_apply, val_main_call2_v1_apply, val_main_v13_apply, val_main_v19_apply,
    val_main_v18_apply, val_main_v16_apply, val_main_v15_apply, val_main_v17_apply, val_main_cst_2_apply,
    val_main_cst_1_apply]
  simp only [ref_idx_lbl, ref_idx_msk, ref_idx_rowsum, ref_absCos, Ideal.hostDivf_def, Ideal.hostNegf_def, Ideal.negf_def,
    Ideal.maximumf_def, Ideal.ofBits_def, Ideal.ofBits_zero_f32, zero_add]
  rfl

/-! ## The result -/

/-- The reference's result: minus the sum over b and over c of the table's cells. -/
theorem ref_table (x0 : (⟨S32768x768, .f32⟩ : BufTy).Contents (Elt Ideal)) (x1 : (⟨S200x768, .f32⟩ : BufTy).Contents (Elt Ideal)) (x2 : (⟨S32768, .i32⟩ : BufTy).Contents (Elt Ideal)) (x3 : (⟨S32768, .i1⟩ : BufTy).Contents (Elt Ideal)) :
    val_main_v24 (F := Ideal) x0 x1 x2 x3 = fun _ => -(∑ b : Fin 32768, ∑ c : Fin 200, cell (absCos x0 x1 b) (x2 (ix1 b)) (x3 (ix1 b)) c) := by
  funext i
  -- the result is −(0 + Σ over all pairs of the table), and the sum over pairs is the iterated sum
  rw [val_main_v24_apply, val_main_v23_apply, val_main_cst_4_apply, ValueIdx.sum_idx2]
  simp only [ref_cell, Ideal.hostNegf_def, Ideal.negf_def, Ideal.ofBits_def, Ideal.ofBits_zero_f32, zero_add]

end Cert.CosLoss

end
-- ==== Proof.Pieces.lean ====
/-
  What one grid point leaves in the 1 × 1 accumulator.  The body's partial sum p of its three input blocks does not
  depend on the accumulator; the first point stores 0 and then 0 + p, every later point reads the running value s and
  stores s + p.
-/
import proofs.«164460_j43619687858278_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.CosLoss

open Cert.KernelIdeal Cert.KernelIdeal.Gen

variable {F : FTy → Type} [FloatOps F]

theorem zeroOffsets : (![0, 0] : Fin 2 → Nat) = fun _ => 0 := funext fun a => by fin_cases a <;> rfl

/-- A later point: the running value s becomes s + p. -/
theorem later_point (c : Dev nD) (i : grid0.Coords) (a1 : Memref sig .tc .vmem S1024x768 .f32) (h1 : a1.IsWhole)
    (a2 : Memref sig .tc .vmem S768x200 .bf16) (h2 : a2.IsWhole) (a3 : Memref sig .tc .vmem S1024x2 .i32) (h3 : a3.IsWhole)
    (a4 : Memref sig .tc .vmem S1x1 .f32) (h4 : a4.IsWhole) (hc : ¬cond0_0 i)
    (x0 : Vec F S1024x768 .f32) (x1 : Vec F S768x200 .bf16) (x2 : Vec F S1024x2 .i32) (xo : Vec F S1x1 .f32) :
    out0_B_3 c i a1 h1 a2 h2 a3 h3 a4 h4 hc x0 x1 x2 xo = k0_pay1 (k0_pay3 x0 x1 x2) xo := by
  unfold out0_B_3
  rw [View.read_writes_eq_canon _ _ _ (cover0_B_3 c i a1 h1 a2 h2 a3 h3 a4 h4 hc x0 x1 x2 xo)]
  unfold kernelRun0_B
  dsimp only
  sl_unfold_words
  rw [View.canon_unit_zero zeroOffsets]
  simp only [View.readAt_eq_ld, h1.read_unread, h2.read_unread, h3.read_unread, h4.read_unread,
    View.ld_unit_zero (S := S1024x768) zeroOffsets, View.ld_unit_zero (S := S768x200) zeroOffsets,
    View.ld_unit_zero (S := S1024x2) zeroOffsets, View.ld_unit_zero (S := S1x1) zeroOffsets]

/-- The first point: the accumulator is set to 0 and then to 0 + p. -/
theorem first_point (c : Dev nD) (i : grid0.Coords) (a1 : Memref sig .tc .vmem S1024x768 .f32) (h1 : a1.IsWhole)
    (a2 : Memref sig .tc .vmem S768x200 .bf16) (h2 : a2.IsWhole) (a3 : Memref sig .tc .vmem S1024x2 .i32) (h3 : a3.IsWhole)
    (a4 : Memref sig .tc .vmem S1x1 .f32) (h4 : a4.IsWhole) (hc : cond0_0 i)
    (x0 : Vec F S1024x768 .f32) (x1 : Vec F S768x200 .bf16) (x2 : Vec F S1024x2 .i32) :
    out0_A_3 c i a1 h1 a2 h2 a3 h3 a4 h4 hc x0 x1 x2 = k0_pay1 (k0_pay3 x0 x1 x2) (k0_pay2 (F := F)) := by
  unfold out0_A_3
  rw [View.read_writes_eq_canon _ _ _ (cover0_A_3 c i a1 h1 a2 h2 a3 h3 a4 h4 hc x0 x1 x2)]
  unfold kernelRun0_A
  dsimp only
  sl_unfold_words
  rw [View.canon_cons_unit_zero (S := S1x1) zeroOffsets, View.readCov_unit_zero (S := S1x1) _ zeroOffsets]
  simp only [View.readAt_eq_ld, h1.read_unread, h2.read_unread, h3.read_unread,
    View.ld_unit_zero (S := S1024x768) zeroOffsets, View.ld_unit_zero (S := S768x200) zeroOffsets,
    View.ld_unit_zero (S := S1024x2) zeroOffsets, View.ld_unit_zero (S := S1x1) zeroOffsets]

end Cert.CosLoss

end
-- ==== Proof.LibColumn.lean ====
/-
  A column kept as a unit trailing axis (what `jnp.sum(…, keepdims=True)` over the last axis produces), read at an
  index: a vector of length a viewed as an [a, 1] column, and an [a, 1] column broadcast along the rows of an
  [a, b] matrix. (The library has the leading-unit-axis forms and the row broadcast [1, b] → [a, b]; these are the
  trailing-unit-axis counterparts, for any extents.)
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibRowSum.lean ====
/-
  A sum along the rows of a matrix, read at an index on the extended reals: a lane reduction of an [n, k] matrix
  over its columns, into the zero accumulator, is at row r the sum over the k columns of the row's entries.
-/
import Idealize.ShloMosaic.PureOps.Ideal.Laws
import Idealize.ShloMosaic.Lib.ValueIdx

namespace Idealize.ShloMosaic.ValueIdx

open Idealize.ShloMosaic

/-- The reduced index `r` with the column `d` put back is the matrix index `(r, d)`. -/
theorem lift_rows {n k : ℕ} (h : (⟨2, ![n, k]⟩ : Shape).Reduces [1] ⟨1, ![n]⟩) (r : Fin n) (d : Fin k) :
    h.lift (ix1 r) d = ix2 r d :=
  funext fun a => Fin.ext (by match a with | ⟨0, _⟩ => rfl | ⟨1, _⟩ => rfl)

/-- A float lane sum over the columns of an `[n, k]` matrix, at row `r`, is the sum of the row's `k` entries. -/
theorem multiReduction_add_rows_apply {n k : ℕ} (src : FVec Ideal ⟨2, ![n, k]⟩ .f32)
    (h : (⟨2, ![n, k]⟩ : Shape).Reduces [1] ⟨1, ![n]⟩) (hφ : FKind.Formats .f32)
    (hacc : (0x00000000#32 : BitVec 32) = FKind.add.neutral .f32 hφ) (r : Fin n) :
    multiReduction .add [1] ⟨1, ![n]⟩ src 0x00000000#32 h hφ hacc (ix1 r) = ∑ d : Fin k, src (ix2 r d) :=
  (Ideal.multiReduction_add_single src 0x00000000#32 h hφ hacc (ix1 r)).trans
    (Finset.sum_congr rfl fun d _ => congrArg src (lift_rows h r d))

end Idealize.ShloMosaic.ValueIdx
-- ==== Proof.Payload.lean ====
/-
  The body's partial sum, read at its one index.

  From a 1024 × 768 block x of feature rows, the 768 × 200 array w of scaled centres (transposed) and the 1024 × 2
  block of label and flag words, the body forms, row by row: the row divided by max(‖row‖₂, ε₁); its inner products
  with the 200 columns of w and their absolute values a(r, ·); the row sum S = Σ_c a(r, c) and the label entry
  A = Σ_c (a(r, c) where c is the row's label, else 0); the row value (2 A − S) / max(S, ε₂) times the flag read as a
  number; and finally the sum of the 1024 row values.  The stages below are the body's own operations, grouped; each is
  then read at an index as a plain sum over coordinates.
-/
import proofs.«164460_j43619687858278_1_alg».proof.Proof.Gen.KernelIdeal.Skeleton
import proofs.«164460_j43619687858278_1_alg».proof.Proof.Spec
import proofs.«164460_j43619687858278_1_alg».proof.Proof.LibColumn
import proofs.«164460_j43619687858278_1_alg».proof.Proof.LibRowSum
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.CosLoss

open Cert.KernelIdeal Cert.KernelIdeal.Gen

/-- The block's rows, each divided by max(‖row‖₂, ε₁). -/
def scaledRows (x0 : Vec Ideal S1024x768 .f32) : FVec Ideal S1024x768 .bf16 :=
  truncf .bf16 (divf x0 (broadcastTo S1024x768 (maximumf (sqrt (shapeCast S1024x1
    (multiReduction .add [1] S1024 (mulf x0 x0) 0x00000000#32 reduces_S1024x768_S1024 (.inl rfl) rfl) shapeCasts_S1024_S1024x1))
    (broadcast S1024x1 (Scalar.ofBits .f32 0x322BCC77#32))) broadcasts_S1024x1_S1024x768)) bitsLt_bf16_f32

/-- a(r, c): the absolute inner products of the scaled rows with the columns of w. -/
def absProducts (x0 : Vec Ideal S1024x768 .f32) (x1 : Vec Ideal S768x200 .bf16) : FVec Ideal S1024x200 .f32 :=
  absf (matmul dot_S1024x768_S768x200_S1024x200_1_0_0_1_n_n none (scaledRows x0)
    (shapeCast S768x200 x1 shapeCasts_S768x200_S768x200 : FVec Ideal S768x200 .bf16) (constant S1024x200 .f32 0x00000000#32))

/-- S(r) = Σ_c a(r, c), kept as a column. -/
def rowSums (x0 : Vec Ideal S1024x768 .f32) (x1 : Vec Ideal S768x200 .bf16) : FVec Ideal S1024x1 .f32 :=
  shapeCast S1024x1 (multiReduction .add [1] S1024 (absProducts x0 x1) 0x00000000#32 reduces_S1024x200_S1024 (.inl rfl) rfl)
    shapeCasts_S1024_S1024x1

/-- The two columns of the label / flag block. -/
def labelColumn (x2 : Vec Ideal S1024x2 .i32) : IVec S1024x1 32 :=
  extractStridedSlice S1024x1 ![0, 0] (shapeCast S1024x2 x2 shapeCasts_S1024x2_S1024x2) slices_S1024x2_o0_0_S1024x1
def flagColumn (x2 : Vec Ideal S1024x2 .i32) : IVec S1024x1 32 :=
  extractStridedSlice S1024x1 ![0, 1] (shapeCast S1024x2 x2 shapeCasts_S1024x2_S1024x2) slices_S1024x2_o0_1_S1024x1

/-- A(r) = Σ_c (a(r, c) where c is row r's label, else 0), kept as a column. -/
def labelEntries (x0 : Vec Ideal S1024x768 .f32) (x1 : Vec Ideal S768x200 .bf16) (x2 : Vec Ideal S1024x2 .i32) :
    FVec Ideal S1024x1 .f32 :=
  shapeCast S1024x1 (multiReduction .add [1] S1024
    (select (cmpi .eq (iota .tc S1024x200 32 [1] iota_S1024x200_d1_w32)
        (broadcastTo S1024x200 (labelColumn x2) broadcasts_S1024x1_S1024x200))
      (absProducts x0 x1) (broadcast S1024x200 (Scalar.ofBits .f32 0x00000000#32)))
    0x00000000#32 reduces_S1024x200_S1024 (.inl rfl) rfl) shapeCasts_S1024_S1024x1

/-- The 1024 row values, as a column. -/
def rowValues (x0 : Vec Ideal S1024x768 .f32) (x1 : Vec Ideal S768x200 .bf16) (x2 : Vec Ideal S1024x2 .i32) :
    FVec Ideal S1024x1 .f32 :=
  mulf (divf (subf (mulf (broadcast S1024x1 (Scalar.ofBits .f32 0x40000000#32)) (labelEntries x0 x1 x2)) (rowSums x0 x1))
      (maximumf (rowSums x0 x1) (broadcast S1024x1 (Scalar.ofBits .f32 0x2B8CBCCC#32))))
    (sitofp .f32 (flagColumn x2))

/-- The body's partial sum is the sum of the row values (the body's text, regrouped). -/
theorem partial_eq (x0 : Vec Ideal S1024x768 .f32) (x1 : Vec Ideal S768x200 .bf16) (x2 : Vec Ideal S1024x2 .i32) :
    k0_pay3 (F := Ideal) x0 x1 x2
      = shapeCast S1x1 (multiReduction .add [0] S1 (rowValues x0 x1 x2) 0x00000000#32 reduces_S1024x1_S1 (.inl rfl) rfl)
          shapeCasts_S1_S1x1 := rfl

/-! ## The stages read at an index -/

/-- A scaled row's entry is `unitRow` of the block. -/
theorem scaledRows_apply (x0 : Vec Ideal S1024x768 .f32) (r : Fin 1024) (k : Fin 768) :
    scaledRows x0 (ix2 r k) = unitRow (n := 1024) x0 r k := by
  unfold scaledRows unitRow
  rw [truncf_apply, divf_apply, broadcastTo_a1_ab_apply, maximumf_apply]
  show Ideal.div (x0 (ix2 r k)) (max (Ideal.sqrt (shapeCast S1024x1
    (multiReduction (F := Ideal) .add [1] S1024 (mulf x0 x0) 0x00000000#32 reduces_S1024x768_S1024 (.inl rfl) rfl) shapeCasts_S1024_S1024x1
    (ix2 r (0 : Fin 1)))) epsNorm) = _
  rw [shapeCast_a_a1_apply]
  exact congrArg (fun s => Ideal.div (x0 (ix2 r k)) (max (Ideal.sqrt s) epsNorm))
    (multiReduction_add_rows_apply (mulf x0 x0) reduces_S1024x768_S1024 (.inl rfl) rfl r)

private abbrev D := dot_S1024x768_S768x200_S1024x200_1_0_0_1_n_n

theorem lhs_row (i : S1024x200.Idx) (q : D.contr.Idx) : (D.lhsIdx i q 0).val = (i 0).val := by
  unfold DotDims.lhsIdx
  rw [dif_neg (show ¬(0 : Fin S1024x768.rank) ∈ D.lhsBatch by decide), dif_pos (show (0 : Fin S1024x768.rank) ∈ D.lhsNonContracting by decide)]
  rfl
theorem lhs_col (i : S1024x200.Idx) (q : D.contr.Idx) : (D.lhsIdx i q 1).val = (q ⟨0, by decide⟩).val :=
  D.lhsIdx_val_of_single rfl i q
theorem rhs_row (i : S1024x200.Idx) (q : D.contr.Idx) : (D.rhsIdx i q 0).val = (q ⟨0, by decide⟩).val :=
  D.rhsIdx_val_of_single rfl i q
theorem rhs_col (i : S1024x200.Idx) (q : D.contr.Idx) : (D.rhsIdx i q 1).val = (i 1).val := by
  unfold DotDims.rhsIdx
  rw [dif_neg (show ¬(1 : Fin S768x200.rank) ∈ D.rhsBatch by decide), dif_pos (show (1 : Fin S768x200.rank) ∈ D.rhsNonContracting by decide)]
  rfl

/-- The product of the scaled rows with w, entry (r, c): the inner product over the 768 coordinates. -/
theorem products_apply (x0 : Vec Ideal S1024x768 .f32) (x1 : Vec Ideal S768x200 .bf16) (r : Fin 1024) (c : Fin 200) :
    matmul D none (scaledRows x0) (shapeCast S768x200 x1 shapeCasts_S768x200_S768x200 : FVec Ideal S768x200 .bf16)
        (constant S1024x200 .f32 0x00000000#32) (ix2 r c)
      = ∑ k : Fin 768, unitRow (n := 1024) x0 r k * x1 (ix2 k c) := by
  simp only [matmul]
  rw [Ideal.matmul_constant_zero_apply, ← Equiv.sum_comp (contrEquiv1 D 768 rfl rfl).symm]
  refine Finset.sum_congr rfl fun k _ => ?_
  have hk := contrEquiv1_symm_val D 768 rfl rfl k
  have el : D.lhsIdx (ix2 r c) ((contrEquiv1 D 768 rfl rfl).symm k) = ix2 r k := funext fun a => Fin.ext (by
    match a with
    | ⟨0, _⟩ => exact lhs_row _ _
    | ⟨1, _⟩ => exact (lhs_col _ _).trans hk)
  have er : D.rhsIdx (ix2 r c) ((contrEquiv1 D 768 rfl rfl).symm k) = ix2 k c := funext fun a => Fin.ext (by
    match a with
    | ⟨0, _⟩ => exact (rhs_row _ _).trans hk
    | ⟨1, _⟩ => exact rhs_col _ _)
  rw [el, er, scaledRows_apply, shapeCast_self]

/-- a(r, c). -/
theorem absProducts_apply (x0 : Vec Ideal S1024x768 .f32) (x1 : Vec Ideal S768x200 .bf16) (r : Fin 1024) (c : Fin 200) :
    absProducts x0 x1 (ix2 r c)
      = max (∑ k : Fin 768, unitRow (n := 1024) x0 r k * x1 (ix2 k c)) (-(∑ k : Fin 768, unitRow (n := 1024) x0 r k * x1 (ix2 k c))) := by
  unfold absProducts
  show max (matmul D none (scaledRows x0) (shapeCast S768x200 x1 shapeCasts_S768x200_S768x200 : FVec Ideal S768x200 .bf16)
        (constant S1024x200 .f32 0x00000000#32) (ix2 r c)) (-(matmul D none (scaledRows x0) (shapeCast S768x200 x1 shapeCasts_S768x200_S768x200 : FVec Ideal S768x200 .bf16)
        (constant S1024x200 .f32 0x00000000#32) (ix2 r c))) = _
  rw [products_apply]

/-- S(r). -/
theorem rowSums_apply (x0 : Vec Ideal S1024x768 .f32) (x1 : Vec Ideal S768x200 .bf16) (r : Fin 1024) :
    rowSums x0 x1 (ix2 r (0 : Fin 1)) = ∑ c : Fin 200, absProducts x0 x1 (ix2 r c) := by
  unfold rowSums
  rw [shapeCast_a_a1_apply]
  exact multiReduction_add_rows_apply (absProducts x0 x1) reduces_S1024x200_S1024 (.inl rfl) rfl r

/-- The label word and the flag word of row r. -/
theorem labelColumn_apply (x2 : Vec Ideal S1024x2 .i32) (r : Fin 1024) :
    labelColumn x2 (ix2 r (0 : Fin 1)) = x2 (ix2 r (0 : Fin 2)) := by
  unfold labelColumn
  rw [shapeCast_self]
  exact slice2_axis1_apply 0 x2 slices_S1024x2_o0_0_S1024x1 r (0 : Fin 1) (0 : Fin 2) rfl
theorem flagColumn_apply (x2 : Vec Ideal S1024x2 .i32) (r : Fin 1024) :
    flagColumn x2 (ix2 r (0 : Fin 1)) = x2 (ix2 r (1 : Fin 2)) := by
  unfold flagColumn
  rw [shapeCast_self]
  exact slice2_axis1_apply 1 x2 slices_S1024x2_o0_1_S1024x1 r (0 : Fin 1) (1 : Fin 2) rfl

/-- A(r). -/
theorem labelEntries_apply (x0 : Vec Ideal S1024x768 .f32) (x1 : Vec Ideal S768x200 .bf16) (x2 : Vec Ideal S1024x2 .i32) (r : Fin 1024) :
    labelEntries x0 x1 x2 (ix2 r (0 : Fin 1))
      = ∑ c : Fin 200, Scalar.select (IntOp.cmpi .eq (BitVec.ofNat 32 c.val) (x2 (ix2 r (0 : Fin 2)))) (absProducts x0 x1 (ix2 r c)) 0 := by
  unfold labelEntries
  rw [shapeCast_a_a1_apply]
  refine (multiReduction_add_rows_apply _ reduces_S1024x200_S1024 (.inl rfl) rfl r).trans ?_
  refine Finset.sum_congr rfl fun c _ => ?_
  show Scalar.select (IntOp.cmpi .eq (iota .tc S1024x200 32 [1] iota_S1024x200_d1_w32 (ix2 r c))
      (broadcastTo S1024x200 (labelColumn x2) broadcasts_S1024x1_S1024x200 (ix2 r c)))
    (absProducts x0 x1 (ix2 r c)) (Ideal.ofBits .f32 0x00000000#32) = _
  rw [iota_single_apply, broadcastTo_a1_ab_apply, labelColumn_apply, Ideal.ofBits_zero_f32]

/-- Row r's value, in the form of the specification. -/
theorem rowValues_apply (x0 : Vec Ideal S1024x768 .f32) (x1 : Vec Ideal S768x200 .bf16) (x2 : Vec Ideal S1024x2 .i32) (r : Fin 1024)
    (msk : BitVec 1) (hm : x2 (ix2 r (1 : Fin 2)) = msk.setWidth 32) :
    rowValues x0 x1 x2 (ix2 r (0 : Fin 1))
      = rowValue (fun c => absProducts x0 x1 (ix2 r c)) (x2 (ix2 r (0 : Fin 2))) msk := by
  unfold rowValues rowValue
  show Ideal.div (two * labelEntries x0 x1 x2 (ix2 r (0 : Fin 1)) - rowSums x0 x1 (ix2 r (0 : Fin 1)))
      (max (rowSums x0 x1 (ix2 r (0 : Fin 1))) epsSum) * (((flagColumn x2 (ix2 r (0 : Fin 1))).toInt : ℝ) : EReal) = _
  rw [labelEntries_apply, rowSums_apply, flagColumn_apply, hm]

/-- The partial sum at its one index: the sum of the 1024 row values. -/
theorem partial_apply (x0 : Vec Ideal S1024x768 .f32) (x1 : Vec Ideal S768x200 .bf16) (x2 : Vec Ideal S1024x2 .i32) (y : S1x1.Idx) :
    k0_pay3 (F := Ideal) x0 x1 x2 y = ∑ r : Fin 1024, rowValues x0 x1 x2 (ix2 r (0 : Fin 1)) := by
  rw [partial_eq]
  obtain ⟨p, q, rfl⟩ : ∃ (p : Fin 1) (q : Fin 1), y = ix2 p q := ⟨y 0, y 1, eq_ix2 y⟩
  rw [shapeCast_a_a1_apply]
  refine (Ideal.multiReduction_add_single (rowValues x0 x1 x2) 0x00000000#32 reduces_S1024x1_S1 (.inl rfl) rfl (ix1 p)).trans ?_
  refine Finset.sum_congr rfl fun r _ => congrArg _ (funext fun a => Fin.ext ?_)
  match a with
  | ⟨0, _⟩ => rfl
  | ⟨1, _⟩ => have := p.isLt; show p.val = 0; omega

/-! ## One grid point against the specification -/

/-- When the three blocks are block t of the arrays — rows 1024 t … 1024 t + 1023 of the features and of the
    label / flag words, and the scaled centres transposed — the body's partial sum is the sum of those rows' terms. -/
theorem point_rows (x0 : Vec Ideal S1024x768 .f32) (x1 : Vec Ideal S768x200 .bf16) (x2 : Vec Ideal S1024x2 .i32)
    (X : Mat 32768 768) (C : Mat 200 768) (L : Fin 32768 → BitVec 32) (M : Fin 32768 → BitVec 1) (t : Fin 32)
    (h0 : ∀ (r : Fin 1024) (k : Fin 768), x0 (ix2 r k) = X (ix2 (blockRow t r) k))
    (h1 : ∀ (k : Fin 768) (j : Fin 200), x1 (ix2 k j) = unitRow C j k)
    (hl : ∀ r : Fin 1024, x2 (ix2 r (0 : Fin 2)) = L (blockRow t r))
    (hm : ∀ r : Fin 1024, x2 (ix2 r (1 : Fin 2)) = (M (blockRow t r)).setWidth 32) (y : S1x1.Idx) :
    k0_pay3 (F := Ideal) x0 x1 x2 y = ∑ r : Fin 1024, rowTerm X C L M (blockRow t r) := by
  refine (partial_apply x0 x1 x2 y).trans (Finset.sum_congr rfl fun r _ => ?_)
  refine (rowValues_apply x0 x1 x2 r (M (blockRow t r)) (hm r)).trans ?_
  have hu : ∀ k : Fin 768, unitRow (n := 1024) x0 r k = unitRow X (blockRow t r) k := fun k => by
    unfold unitRow
    simp only [h0]
  have ha : (fun c : Fin 200 => absProducts x0 x1 (ix2 r c)) = absCos X C (blockRow t r) := funext fun c => by
    rw [absProducts_apply]
    unfold absCos cosine
    simp only [hu, h1]
  unfold rowTerm
  rw [ha, hl]

end Cert.CosLoss

end
-- ==== Proof.HostPrefix.lean ====
/-
  What the kernel program's host operations leave in the two arrays they build before the pallas_call region, read at
  an index.

  The centres' array (768 × 200): every row of `centers` (200 × 768) is divided by max(sqrt(Σ_d row_d²), ε₁), the
  quotient is rounded to bf16 — the identity on extended reals — and the result is transposed.  Entry (k, j) is
  therefore entry k of centre row j scaled to unit length: `unitRow centers j k`.

  The labels-and-flags array (32768 × 2): the label vector as a column, concatenated along axis 1 with the flag
  vector as a column, each one-bit flag zero-extended to a 32-bit word.  Entry (b, 0) is row b's label, entry (b, 1)
  its flag as a word.

  Each array is first identified with the composition of its operations applied to the launch contents of the
  program's arguments (the earlier operations write other buffers only), and the composition is then read at an
  index one operation at a time.
-/
import proofs.«164460_j43619687858278_1_alg».proof.Proof.Gen.KernelIdeal.Frame
import proofs.«164460_j43619687858278_1_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.CosLoss

open Cert.KernelIdeal Cert.KernelIdeal.Gen Idealize.ShloMosaic Idealize.ShloMosaic.TcCoe Idealize.SL.Sem Idealize.ShloMosaic.ValueIdx
open Idealize.ShloMosaic.StableHlo

variable (m : (ℓ : Loc nD τ sig) → Buf (Elt Ideal) ℓ)

/-! ## The centres' array the kernel's second window stages -/

/-- The row sums of squares: entry j is the initial value 0 plus the sum over d of (row j, column d) squared. -/
def sqSum (x : (⟨S200x768, .f32⟩ : BufTy).Contents (Elt Ideal)) : (⟨S200, .f32⟩ : BufTy).Contents (Elt Ideal) :=
  Host.reduceAdd (F := Ideal) (mulf x x) (constant (F := Ideal) S_ .f32 0x00000000#32) reducesTo_S200x768_S200_d1 h_S_

/-- The bounded norms as a column: max(sqrt(row sum), ε₁). -/
def normCol (x : (⟨S200x768, .f32⟩ : BufTy).Contents (Elt Ideal)) : (⟨S200x1, .f32⟩ : BufTy).Contents (Elt Ideal) :=
  maximumf (Host.sqrt (F := Ideal) (broadcastInDim S200x1 ![0] bcast_S200_S200x1_0 (sqSum x)))
    (broadcastInDim S200x1 ![] bcast_S_S200x1 (constant (F := Ideal) S_ .f32 0x322BCC77#32))

/-- The scaled centres, rounded to bf16 (the identity on extended reals) and transposed. -/
def centersT (x : (⟨S200x768, .f32⟩ : BufTy).Contents (Elt Ideal)) : (⟨S768x200, .bf16⟩ : BufTy).Contents (Elt Ideal) :=
  transpose S768x200 [1, 0]
    (truncf .bf16 (Host.divf (F := Ideal) x (broadcastInDim S200x768 ![0, 1] bcast_S200x1_S200x768_0_1 (normCol x))) bitsLt_bf16_f32)
    transposes_S200x768_S768x200_1_0

theorem V_main_v6_eq (c : Dev nD) :
    (V m c main_v6 : S768x200.Idx → EReal) = centersT (m ((c : Thread nD τ).loc main_arg1)) := by
  dsimp only [Gen.V, Gen.V0]
  simp only [Gen.hostOps0, Gen.hostOps0_1, List.flatten_cons, List.flatten_nil, List.append_nil, List.cons_append, List.nil_append]
  after_results
  rfl

theorem sqSum_apply (x : (⟨S200x768, .f32⟩ : BufTy).Contents (Elt Ideal)) (j : Fin 200) :
    sqSum x (ix1 j) = ∑ d : Fin 768, x (ix2 j d) * x (ix2 j d) := by
  unfold sqSum
  simp only [Host.reduceAdd, Ideal.hostReduceAdd_def]
  rw [Ideal.hostReduceAdd_single reducesTo_S200x768_S200_d1 (by decide)]
  rw [constant_apply, Ideal.ofBits_zero_f32, zero_add]
  refine Finset.sum_congr rfl fun d _ => ?_
  rw [mulf_apply]
  have hi : ∀ h : S200x768.Reduces [1] S200, h.lift (ix1 j) d = ix2 j d := fun h =>
    funext fun a => Fin.ext (by match a with | ⟨0, _⟩ => rfl | ⟨1, _⟩ => rfl)
  rw [hi]
  rfl

theorem normCol_apply (x : (⟨S200x768, .f32⟩ : BufTy).Contents (Elt Ideal)) (j : Fin 200) :
    normCol x (ix2 j (0 : Fin 1)) = max (Ideal.sqrt (∑ d : Fin 768, x (ix2 j d) * x (ix2 j d))) epsNorm := by
  unfold normCol
  rw [maximumf_apply]
  rw [show (Host.sqrt (F := Ideal) (broadcastInDim S200x1 ![0] bcast_S200_S200x1_0 (sqSum x)) (ix2 j (0 : Fin 1)) : EReal)
        = FloatOps.hostUnary .sqrt (broadcastInDim S200x1 ![0] bcast_S200_S200x1_0 (sqSum x) (ix2 j (0 : Fin 1))) from rfl,
    Ideal.hostUnary_sqrt_def]
  rw [broadcastInDim_apply _ bcast_S200_S200x1_0 (sqSum x) (ix2 j (0 : Fin 1)) (ix1 j) (fun a => match a with
    | ⟨0, _⟩ => by show j.val = if (200 : Nat) = 1 then 0 else j.val; rw [if_neg (by decide)])]
  rw [sqSum_apply]
  rw [broadcastInDim_apply _ bcast_S_S200x1 (constant (F := Ideal) S_ .f32 0x322BCC77#32) (ix2 j (0 : Fin 1)) (fun a => a.elim0) (fun a => a.elim0)]
  rfl

theorem centersT_apply (x : (⟨S200x768, .f32⟩ : BufTy).Contents (Elt Ideal)) (k : Fin 768) (j : Fin 200) :
    centersT x (ix2 k j) = unitRow x j k := by
  unfold centersT
  rw [transpose_ix2_apply, truncf_apply]
  rw [show (Host.divf (F := Ideal) x (broadcastInDim S200x768 ![0, 1] bcast_S200x1_S200x768_0_1 (normCol x)) (ix2 j k) : EReal)
        = FloatOps.hostDivf (x (ix2 j k)) (broadcastInDim S200x768 ![0, 1] bcast_S200x1_S200x768_0_1 (normCol x) (ix2 j k)) from rfl,
    Ideal.hostDivf_def]
  rw [broadcastInDim_apply _ bcast_S200x1_S200x768_0_1 (normCol x) (ix2 j k) (ix2 j (0 : Fin 1)) (fun a => match a with
    | ⟨0, _⟩ => by show j.val = if (200 : Nat) = 1 then 0 else j.val; rw [if_neg (by decide)]
    | ⟨1, _⟩ => by show 0 = if (1 : Nat) = 1 then 0 else k.val; rw [if_pos rfl])]
  rw [normCol_apply]
  rfl

/-- What the second window's array holds when the region is entered: entry (k, j) is entry k of centre row j
    divided by the row's bounded norm. -/
theorem V_centersT (c : Dev nD) (k : Fin 768) (j : Fin 200) :
    (V m c main_v6 : S768x200.Idx → EReal) (ix2 k j) = unitRow (m ((c : Thread nD τ).loc main_arg1)) j k := by
  rw [V_main_v6_eq, centersT_apply]

/-! ## The labels-and-flags array the kernel's third window stages -/

/-- The label column beside the flag column, each flag zero-extended to a 32-bit word. -/
def auxCols (lbl : (⟨S32768, .i32⟩ : BufTy).Contents (Elt Ideal)) (msk : (⟨S32768, .i1⟩ : BufTy).Contents (Elt Ideal)) :
    (⟨S32768x2, .i32⟩ : BufTy).Contents (Elt Ideal) :=
  concatenate S32768x2 1
    [⟨S32768x1, broadcastInDim S32768x1 ![0] bcast_S32768_S32768x1_0 lbl⟩,
      ⟨S32768x1, broadcastInDim S32768x1 ![0] bcast_S32768_S32768x1_0 (extui 32 msk natLt_1_32)⟩]
    concatenates_S32768x1_S32768x1_S32768x2_d1

theorem V_main_v10_eq (c : Dev nD) :
    (V m c main_v10 : S32768x2.Idx → BitVec 32)
      = auxCols (m ((c : Thread nD τ).loc main_arg2)) (m ((c : Thread nD τ).loc main_arg3)) := by
  dsimp only [Gen.V, Gen.V0]
  simp only [Gen.hostOps0, Gen.hostOps0_1, List.flatten_cons, List.flatten_nil, List.append_nil, List.cons_append, List.nil_append]
  after_results
  rfl

/-- A column made from a vector reads, at (b, 0), the vector at b. -/
theorem column_apply {α : Type} (v : S32768.Idx → α) (b : Fin 32768) :
    broadcastInDim S32768x1 ![0] bcast_S32768_S32768x1_0 v (ix2 b (0 : Fin 1)) = v (ix1 b) :=
  broadcastInDim_apply _ bcast_S32768_S32768x1_0 v (ix2 b (0 : Fin 1)) (ix1 b) (fun a => match a with
    | ⟨0, _⟩ => by show b.val = if (32768 : Nat) = 1 then 0 else b.val; rw [if_neg (by decide)])

theorem auxCols_label (lbl : (⟨S32768, .i32⟩ : BufTy).Contents (Elt Ideal)) (msk : (⟨S32768, .i1⟩ : BufTy).Contents (Elt Ideal))
    (b : Fin 32768) : auxCols lbl msk (ix2 b (0 : Fin 2)) = lbl (ix1 b) := by
  unfold auxCols
  rw [concatenate_pair_apply_left (1 : Fin S32768x2.rank) _ _ concatenates_S32768x1_S32768x1_S32768x2_d1 (ix2 b (0 : Fin 2)) rfl
    (ix2 b (0 : Fin 1)) (fun a => match a with | ⟨0, _⟩ => rfl | ⟨1, _⟩ => rfl)]
  exact column_apply lbl b

theorem auxCols_mask (lbl : (⟨S32768, .i32⟩ : BufTy).Contents (Elt Ideal)) (msk : (⟨S32768, .i1⟩ : BufTy).Contents (Elt Ideal))
    (b : Fin 32768) : auxCols lbl msk (ix2 b (1 : Fin 2)) = (msk (ix1 b)).setWidth 32 := by
  unfold auxCols
  rw [concatenate_pair_apply_right (1 : Fin S32768x2.rank) _ _ concatenates_S32768x1_S32768x1_S32768x2_d1 (ix2 b (1 : Fin 2)) rfl rfl
    (ix2 b (0 : Fin 1)) (fun a ha => match a, ha with | ⟨0, _⟩, _ => rfl | ⟨1, _⟩, ha => (ha (Fin.ext rfl)).elim) rfl]
  rw [column_apply, extui_apply]

/-- Column 0 of the third window's array is the label vector. -/
theorem V_aux_label (c : Dev nD) (b : Fin 32768) :
    (V m c main_v10 : S32768x2.Idx → BitVec 32) (ix2 b (0 : Fin 2)) = m ((c : Thread nD τ).loc main_arg2) (ix1 b) := by
  rw [V_main_v10_eq, auxCols_label]

/-- Column 1 is the flag vector, each one-bit flag zero-extended to a 32-bit word. -/
theorem V_aux_mask (c : Dev nD) (b : Fin 32768) :
    (V m c main_v10 : S32768x2.Idx → BitVec 32) (ix2 b (1 : Fin 2)) = (m ((c : Thread nD τ).loc main_arg3) (ix1 b)).setWidth 32 := by
  rw [V_main_v10_eq, auxCols_mask]

end Cert.CosLoss

end
-- ==== Proof.KernelValue.lean ====
/-
  The kernel's run read as a value.  Grid point t stages rows 1024 t … 1024 t + 1023 of the features and of the
  label / flag words, and the whole array of scaled centres; its partial sum is therefore the sum of those rows'
  terms.  The 1 × 1 accumulator holds 0 + p₀ after the first point and gains pₜ at each later one, so after the
  last point it holds the sum of all 32768 row terms; it is written back once, after the last point, and the two host
  operations after the region drop the unit axes and negate: the result is the loss.
-/
import proofs.«164460_j43619687858278_1_alg».proof.Proof.Gen.KernelIdeal.Frame
import proofs.«164460_j43619687858278_1_alg».proof.Proof.Spec
import proofs.«164460_j43619687858278_1_alg».proof.Proof.RowLaw
import proofs.«164460_j43619687858278_1_alg».proof.Proof.Pieces
import proofs.«164460_j43619687858278_1_alg».proof.Proof.Payload
import proofs.«164460_j43619687858278_1_alg».proof.Proof.HostPrefix
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.CosLoss

open Cert.KernelIdeal Cert.KernelIdeal.Gen

variable (m : (ℓ : Loc nD τ sig) → Buf (Elt Ideal) ℓ) (ρ : Dev nD → PrngReg)

/-- The four argument arrays on core c, as the specification takes them. -/
abbrev feats (c : Dev nD) : Mat 32768 768 := m ((c : Thread nD τ).loc main_arg0)
abbrev cents (c : Dev nD) : Mat 200 768 := m ((c : Thread nD τ).loc main_arg1)
abbrev labels (c : Dev nD) : Fin 32768 → BitVec 32 := fun b => m ((c : Thread nD τ).loc main_arg2) (ix1 b)
abbrev flags (c : Dev nD) : Fin 32768 → BitVec 1 := fun b => m ((c : Thread nD τ).loc main_arg3) (ix1 b)

/-! ## The blocks a point stages -/

theorem index_feats : ∀ t : Fin cfg0.N, win0_0.index t 0 = t.val ∧ win0_0.index t 1 = 0 :=
  (by decide +kernel : ∀ t : Fin grid0.N, win0_0.index t 0 = t.val ∧ win0_0.index t 1 = 0)
theorem index_cents : ∀ t : Fin cfg0.N, win0_1.index t 0 = 0 ∧ win0_1.index t 1 = 0 :=
  (by decide +kernel : ∀ t : Fin grid0.N, win0_1.index t 0 = 0 ∧ win0_1.index t 1 = 0)
theorem index_aux : ∀ t : Fin cfg0.N, win0_2.index t 0 = t.val ∧ win0_2.index t 1 = 0 :=
  (by decide +kernel : ∀ t : Fin grid0.N, win0_2.index t 0 = t.val ∧ win0_2.index t 1 = 0)

/-- Row r of the feature block at point t is row 1024 t + r of the features. -/
theorem block_feats (c : Dev nD) (t : Fin cfg0.N) (r : Fin 1024) (k : Fin 768) (b : Fin 32768) (hb : b.val = t.val * 1024 + r.val) :
    (iblk m c 0 t : S1024x768.Idx → EReal) (ix2 r k) = feats m c (ix2 b k) := by
  unfold iblk
  rw [View.read_apply]
  show V m c main_arg0 _ = m ((c : Thread nD τ).loc main_arg0) _
  rw [V_main_arg0]
  congr 1
  funext a
  apply Fin.ext
  match a with
  | ⟨0, _⟩ => show win0_0.index t 0 * 1024 + 1 * r.val = b.val; rw [(index_feats t).1]; omega
  | ⟨1, _⟩ => show win0_0.index t 1 * 768 + 1 * k.val = k.val; rw [(index_feats t).2]; omega

/-- The centre block at every point is the whole array of scaled centres, transposed. -/
theorem block_cents (c : Dev nD) (t : Fin cfg0.N) (k : Fin 768) (j : Fin 200) :
    (iblk m c 1 t : S768x200.Idx → EReal) (ix2 k j) = unitRow (cents m c) j k := by
  rw [← V_centersT m c k j]
  unfold iblk
  rw [View.read_apply]
  show V m c main_v6 _ = V m c main_v6 _
  congr 1
  funext a
  apply Fin.ext
  match a with
  | ⟨0, _⟩ => show win0_1.index t 0 * 768 + 1 * k.val = k.val; rw [(index_cents t).1]; omega
  | ⟨1, _⟩ => show win0_1.index t 1 * 200 + 1 * j.val = j.val; rw [(index_cents t).2]; omega

/-- Row r of the label / flag block at point t is row 1024 t + r of the two-column array. -/
theorem block_aux (c : Dev nD) (t : Fin cfg0.N) (r : Fin 1024) (e : Fin 2) (b : Fin 32768) (hb : b.val = t.val * 1024 + r.val) :
    (iblk m c 2 t : S1024x2.Idx → BitVec 32) (ix2 r e) = (V m c main_v10 : S32768x2.Idx → BitVec 32) (ix2 b e) := by
  unfold iblk
  rw [View.read_apply]
  show V m c main_v10 _ = V m c main_v10 _
  congr 1
  funext a
  apply Fin.ext
  match a with
  | ⟨0, _⟩ => show win0_2.index t 0 * 1024 + 1 * r.val = b.val; rw [(index_aux t).1]; omega
  | ⟨1, _⟩ => show win0_2.index t 1 * 2 + 1 * e.val = e.val; rw [(index_aux t).2]; omega

/-! ## One point's partial sum, and the accumulator point by point -/

/-- Point t as a block number. -/
def blockOf (t : Fin cfg0.N) : Fin 32 := ⟨t.val, lt_of_lt_of_eq t.isLt N_0⟩

/-- Row term b on core c. -/
abbrev term (c : Dev nD) (b : Fin 32768) : EReal := rowTerm (feats m c) (cents m c) (labels m c) (flags m c) b

/-- The body's partial sum at point t is the sum of block t's row terms. -/
theorem point_value (c : Dev nD) (t : Fin cfg0.N) (y : S1x1.Idx) :
    k0_pay3 (F := Ideal) (iblk m c 0 t) (iblk m c 1 t) (iblk m c 2 t) y
      = ∑ r : Fin 1024, term m c (blockRow (blockOf t) r) := by
  refine point_rows (iblk m c 0 t) (iblk m c 1 t) (iblk m c 2 t) (feats m c) (cents m c) (labels m c) (flags m c) (blockOf t)
    ?_ ?_ ?_ ?_ y
  · intro r k; exact block_feats m c t r k (blockRow (blockOf t) r) rfl
  · intro k j; exact block_cents m c t k j
  · intro r; exact (block_aux m c t r 0 (blockRow (blockOf t) r) rfl).trans (V_aux_label m c _)
  · intro r; exact (block_aux m c t r 1 (blockRow (blockOf t) r) rfl).trans (V_aux_mask m c _)

/-- The sum of block n's row terms. -/
def pointSum (c : Dev nD) (n : ℕ) (h : n < 32) : EReal := ∑ r : Fin 1024, term m c (blockRow ⟨n, h⟩ r)

/-- The accumulator after point n: 0 + p₀, then + pₙ. -/
def runningSum (c : Dev nD) : (n : ℕ) → n < 32 → EReal
  | 0, h => 0 + pointSum m c 0 h
  | n + 1, h => runningSum c n (Nat.lt_of_succ_lt h) + pointSum m c (n + 1) h

theorem store_apply (p s : Vec Ideal S1x1 .f32) (y : S1x1.Idx) : k0_pay1 (F := Ideal) p s y = s y + p y := by
  unfold k0_pay1
  rw [shapeCast_self]
  rfl

theorem reset_apply (y : S1x1.Idx) : k0_pay2 (F := Ideal) y = 0 := Ideal.ofBits_zero_f32

/-- What the accumulator's staging buffer holds after point n is the running sum. -/
theorem acc_eq (c : Dev nD) : ∀ (n : ℕ) (h : n < cfg0.N), outsAt0 m c n h = fun _ => runningSum m c n (lt_of_lt_of_eq h N_0)
  | 0, h => by
    refine (outsAt0_A m c ⟨0, h⟩ rfl).trans ?_
    refine (first_point c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
      (ms0_3 ⟨0, h⟩) (hs0_3 ⟨0, h⟩) _ (iblk m c 0 ⟨0, h⟩) (iblk m c 1 ⟨0, h⟩) (iblk m c 2 ⟨0, h⟩)).trans ?_
    funext y
    rw [store_apply, reset_apply, point_value]
    rfl
  | n + 1, h => by
    have hN : cfg0.N = 32 := N_0
    have hB : ¬(⟨n + 1, h⟩ : Fin cfg0.N).val % 32 = 0 := by dsimp only; omega
    refine (outsAt0_B m c ⟨n + 1, h⟩ hB).trans ?_
    refine (later_point c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) (ms0_3 ⟨n + 1, h⟩) (hs0_3 ⟨n + 1, h⟩) _ (iblk m c 0 ⟨n + 1, h⟩) (iblk m c 1 ⟨n + 1, h⟩)
      (iblk m c 2 ⟨n + 1, h⟩) _).trans ?_
    funext y
    rw [store_apply, point_value]
    show outsAt0 m c n _ y + _ = _
    rw [acc_eq c n]
    rfl

/-- The running sum after point n is the sum of the first n + 1 blocks' sums. -/
theorem runningSum_eq (c : Dev nD) : ∀ (n : ℕ) (h : n < 32),
    runningSum m c n h = ∑ s : Fin (n + 1), pointSum m c s.val (lt_of_lt_of_le s.isLt h)
  | 0, h => by
    rw [runningSum, Fin.sum_univ_castSucc, Fin.sum_univ_zero]
    rfl
  | n + 1, h => by
    rw [runningSum, runningSum_eq c n, Fin.sum_univ_castSucc (n := n + 1)]
    rfl

/-- After the last point the accumulator holds the sum of all 32768 row terms. -/
theorem total_eq (c : Dev nD) : runningSum m c 31 (by decide) = ∑ b : Fin 32768, term m c b := by
  rw [runningSum_eq]
  exact sum_blockRow (fun b => term m c b)

/-! ## The result array, and the host operations after the region -/

/-- The accumulator's array after the run. -/
def accFinal (c : Dev nD) : Buf (Elt Ideal) ((c : Thread nD τ).loc main_v11) := fun _ => runningSum m c 31 (by decide)

/-- The last grid point, the one write-back. -/
def lastPoint : Fin cfg0.N := ⟨31, by rw [show cfg0.N = 32 from N_0]; decide⟩

/-- The one write-back, after the last point, writes the running sum: block (0, 0) of the 1 × 1 array is the array. -/
theorem flushed_eq (c : Dev nD) (t : Fin cfg0.N) (hf : (cfg0.win 3).flush t = true) :
    (dats m 0 c).flushed 3 t = ((cfg0.win 3).blk t).view.read (Elt Ideal) (accFinal m c) := by
  have hN : cfg0.N = 32 := N_0
  have h31 : t.val = 31 := by have := (flush0_3 t).mp hf; have := t.isLt; omega
  obtain rfl : t = lastPoint := Fin.ext h31
  show (cfg0.win 3).cut (grid0.coords lastPoint) ((dats m 0 c).after 3 lastPoint) = _
  rw [after0_3, acc_eq]
  have hz' : (fun a => win0_3.index lastPoint a * main_v11.ty.shape.size a) = fun _ => 0 := funext fun a => by fin_cases a <;> decide
  exact (Memref.read_access_unit_zero (Elt Ideal) main_v11 hz' (fun a => by rw [congrFun hz' a]; simp) (accFinal m c)).symm

/-- So the result array ends holding the running sum after the last point. -/
theorem final_acc (c : Dev nD) : (dats m 0 c).arrAt 3 cfg0.N = accFinal m c :=
  (dats m 0 c).arrAt_eq_of_cover 3 (accFinal m c) (flushed_eq m c) fun i =>
    ⟨lastPoint, (flush0_3 lastPoint).mpr rfl, by
      show i ∈ ((View.whole main_v11).slice (win0_3.rect lastPoint)).set
      rw [View.set_slice_whole, Rect.mem_set_unit]
      intro a
      have h0 : (i 0 : Nat) < 1 := (i 0).isLt
      have h1 : (i 1 : Nat) < 1 := (i 1).isLt
      match a with
      | ⟨0, _⟩ => show win0_3.index lastPoint 0 * win0_3.size 0 ≤ (i 0 : Nat) ∧ (i 0 : Nat) < win0_3.index lastPoint 0 * win0_3.size 0 + win0_3.xsize (grid0.coords lastPoint) 0
                  rw [show win0_3.index lastPoint 0 * win0_3.size 0 = 0 from by decide +kernel, show win0_3.xsize (grid0.coords lastPoint) 0 = 1 from by decide +kernel]; omega
      | ⟨1, _⟩ => show win0_3.index lastPoint 1 * win0_3.size 1 ≤ (i 1 : Nat) ∧ (i 1 : Nat) < win0_3.index lastPoint 1 * win0_3.size 1 + win0_3.xsize (grid0.coords lastPoint) 1
                  rw [show win0_3.index lastPoint 1 * win0_3.size 1 = 0 from by decide +kernel, show win0_3.xsize (grid0.coords lastPoint) 1 = 1 from by decide +kernel]; omega⟩

/-- The two host operations after the region turn the 1 × 1 array into a scalar and negate it: the loss. -/
theorem tail_eq (c : Dev nD) :
    (Pipeline.afterTail₀ cfgs (dats m) 0 (V0 m) [hostOps1] c main_v13 : S_.Idx → EReal)
      = fun _ => loss (feats m c) (cents m c) (labels m c) (flags m c) := by
  unfold Pipeline.afterTail₀
  show StableHlo.after hostOps1 _ (Proc.devRef .tc main_v13) = _
  after_results
  have hw : Pipeline.withArrays (cfgs 0).spec c (V0 m c) (fun w => (dats m 0 c).arrAt w (cfgs 0).N) (Proc.tc.devRef main_v11)
      = accFinal m c := (Pipeline.withArrays_arr spec0 launch0.win.arr_inj c _ _ 3).trans (final_acc m c)
  rw [hw]
  funext x
  refine Eq.trans (b := -(runningSum m c 31 (by decide))) rfl ?_
  rw [total_eq]
  rfl

/-- The kernel's run: the result is the loss of the argument arrays, which end unchanged. -/
theorem kernel_run : θ_run defs (onTc (τ := τ) (main (F := Ideal))) ⟨m, fun _ => 0, ρ⟩ fun r => ∀ c : Dev nD,
      r.2.mem ((c.tc : Thread nD τ).loc main_v13) = (fun _ => loss (feats m c) (cents m c) (labels m c) (flags m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v13 (Pipeline.mem_restRefs_of main_v13 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.CosLoss

end
-- ==== Proof.lean ====
/-
  The claim's five parts.

  Frames.  Both printed kernels' frames are the generated frame runs; the reference has no kernel, and its frame is
  its run with the result dropped.  The idealization rewrote nothing, so `preserves` is `True`.

  Values.  Write a(b, c) for the absolute cosine of feature row b and centre c (each row divided by its norm bounded
  below by ε₁), S_b = Σ_c a(b, c), and ℓ_b, f_b for row b's label and flag.  The kernel adds up, 1024 rows at a time,
  the row values (2 · a(b, ℓ_b) − S_b) / max(S_b, ε₂) · f_b and negates the total (KernelValue.lean).  The reference
  sums the 32768 × 200 table of ± a(b, c) / max(S_b, ε₂) · f_b, plus at c = ℓ_b and minus elsewhere, and negates
  (RefTable.lean).  Finite inputs make every a(b, c) a real number, and for real rows the table's row b adds up to the
  row value: Σ_c ± a(b, c) = a(b, ℓ_b) − (S_b − a(b, ℓ_b)), and dividing a finite sum by a positive real is termwise
  (RowLaw.lean).  So both results are the one extended real `loss`.
-/
import proofs.«164460_j43619687858278_1_alg».proof.Defs
import proofs.«164460_j43619687858278_1_alg».proof.Proof.Gen.Kernel
import proofs.«164460_j43619687858278_1_alg».proof.Proof.Gen.Kernel.Frame
import proofs.«164460_j43619687858278_1_alg».proof.Proof.Gen.KernelIdeal
import proofs.«164460_j43619687858278_1_alg».proof.Proof.Gen.KernelIdeal.Frame
import proofs.«164460_j43619687858278_1_alg».proof.Proof.Gen.ReferenceIdeal
import proofs.«164460_j43619687858278_1_alg».proof.Proof.Gen.ReferenceIdeal.Run
import proofs.«164460_j43619687858278_1_alg».proof.Proof.Gen.ReferenceIdeal.Read
import proofs.«164460_j43619687858278_1_alg».proof.Proof.Gen.Pre_finite_inputs
import proofs.«164460_j43619687858278_1_alg».proof.Proof.Spec
import proofs.«164460_j43619687858278_1_alg».proof.Proof.RowLaw
import proofs.«164460_j43619687858278_1_alg».proof.Proof.Finite
import proofs.«164460_j43619687858278_1_alg».proof.Proof.RefTable
import proofs.«164460_j43619687858278_1_alg».proof.Proof.KernelValue
import Idealize.ShloMosaic.Adequacy
import Idealize.ShloMosaic.Init

noncomputable section

namespace Cert.Proof

open Idealize.ShloMosaic Idealize.ShloMosaic.TcCoe Idealize.SL.Sem Idealize.ShloMosaic.ValueIdx Cert.CosLoss

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end at `loss` of the (agreeing, finite) argument arrays. -/
theorem algebraic : Cert.algebraic_KernelIdeal_ReferenceIdeal := by
  intro m ρ m' ρ' hpre hagree
  refine ⟨fun c => fun _ => loss (feats m c) (cents m c) (labels m c) (flags m c), kernel_run m ρ, ?_⟩
  refine (θ_run Cert.ReferenceIdeal.defs _ _).mono (fun _ h c => ⟨(h c).1.trans ?_, (h c).2⟩)
    (Cert.ReferenceIdeal.Value.run (F := Ideal) m' ρ')
  obtain ⟨hX, hC⟩ := finite_of_pre _ _ _ _ (hpre c)
  rw [Cert.ReferenceIdeal.Read.val_main_v24_eq, ref_table, (hagree c).1, (hagree c).2.1, (hagree c).2.2.1, (hagree c).2.2.2]
  funext _
  unfold loss rowTerm
  exact congrArg Neg.neg (Finset.sum_congr rfl fun b _ => row_law _ (absCos_real _ _ hX hC b) _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
